-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x64 .f32) (main_arg3 : FVec F S64 .f32) (main_arg4 : FVec F S64x32 .f32) (main_arg5 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩
abbrev S5000 : Shape := ⟨1, ![5000]⟩
abbrev S5000x1 : Shape := ⟨2, ![5000, 1]⟩

abbrev nBuf : Space → Nat
  | .hbm => 83
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x32, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x32, .f32⟩
  | .hbm, ⟨74, _⟩ => ⟨S1700000x1, .f32⟩
  | .hbm, ⟨75, _⟩ => ⟨S1700000x32, .f32⟩
  | .hbm, ⟨76, _⟩ => ⟨S1700000x32, .f32⟩
  | .hbm, ⟨77, _⟩ => ⟨S_, .f32⟩
  | .hbm, ⟨78, _⟩ => ⟨S100000x32, .f32⟩
  | .hbm, ⟨79, _⟩ => ⟨S1700000x1, .i32⟩
  | .hbm, ⟨80, _⟩ => ⟨S100000x32, .f32⟩
  | .hbm, ⟨81, _⟩ => ⟨S1x32, .f32⟩
  | .hbm, ⟨82, _⟩ => ⟨S100000x32, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩

abbrev nBuf : Space → Nat
  | .hbm => 151
  | .vmem => 0
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S64x32, .f32⟩
  | 5 => ⟨S32, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S100000x64, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x64, .f32⟩
  | 55 => ⟨S1700000x1, .f32⟩
  | 56 => ⟨S1700000x64, .f32⟩
  | 57 => ⟨S1700000x64, .f32⟩
  | 58 => ⟨S_, .f32⟩
  | 59 => ⟨S100000x64, .f32⟩
  | 60 => ⟨S1700000x1, .i32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S_, .f32⟩
  | 67 => ⟨S100000x64, .f32⟩
  | 68 => ⟨S100000x64, .i1⟩
  | 69 => ⟨S_, .f32⟩
  | 70 => ⟨S100000x64, .f32⟩
  | 71 => ⟨S100000x64, .f32⟩
  | 72 => ⟨S100000x64, .f32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S100000x32, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x32, .f32⟩
  | 118 => ⟨S1700000x1, .f32⟩
  | 119 => ⟨S1700000x32, .f32⟩
  | 120 => ⟨S1700000x32, .f32⟩
  | 121 => ⟨S_, .f32⟩
  | 122 => ⟨S100000x32, .f32⟩
  | 123 => ⟨S1700000x1, .i32⟩
  | 124 => ⟨S100000x32, .f32⟩
  | 125 => ⟨S1x32, .f32⟩
  | 126 => ⟨S100000x32, .f32⟩
  | 127 => ⟨S100000x32, .f32⟩
  | _ => ⟨S100000x256, .f32⟩

abbrev hbmTy0_1 (i : Nat) : BufTy := match i % 128 with
  | 0 => ⟨S_, .f32⟩
  | 1 => ⟨S_, .f32⟩
  | 2 => ⟨S100000x32, .f32⟩
  | 3 => ⟨S100000x32, .i1⟩
  | 4 => ⟨S_, .f32⟩
  | 5 => ⟨S100000x32, .f32⟩
  | 6 => ⟨S100000x32, .f32⟩
  | 7 => ⟨S100000x32, .f32⟩
  | 8 => ⟨S_, .f32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x32, .f32⟩
  | 15 => ⟨S100000x32, .f32⟩
  | 16 => ⟨S100000x32, .f32⟩
  | 17 => ⟨S_, .f32⟩
  | 18 => ⟨S100000, .f32⟩
  | 19 => ⟨S100000x1, .f32⟩
  | 20 => ⟨S100000x1, .f32⟩
  | 21 => ⟨S100000x32, .f32⟩
  | 22 => ⟨S100000x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_20 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_call3_cst : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_v93 : Ref sig .tc := ⟨.hbm, 135, rfl⟩
abbrev main_call4_cst : Ref sig .tc := ⟨.hbm, 136, rfl⟩
abbrev main_call4_v0 : Ref sig .tc := ⟨.hbm, 137, rfl⟩
abbrev main_call4_cst_0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_v6 : Ref sig .tc := ⟨.hbm, 144, rfl⟩
abbrev main_call4_cst_1 : Ref sig .tc := ⟨.hbm, 145, rfl⟩
abbrev main_call4_v7 : Ref sig .tc := ⟨.hbm, 146, rfl⟩
abbrev main_call4_v8 : Ref sig .tc := ⟨.hbm, 147, rfl⟩
abbrev main_call4_v9 : Ref sig .tc := ⟨.hbm, 148, rfl⟩
abbrev main_call4_v10 : Ref sig .tc := ⟨.hbm, 149, rfl⟩
abbrev main_v94 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KAgg.lean ====
import proofs.«107355_j11166914969680_1_alg».proof.KernelIdeal
import Idealize.ShloMosaic.PureOps.Ideal

/-!
# The edge aggregation, as the kernel program's host operations spell it

From the edge array `e : i32[2, 1600000]` (row 0 the sources, row 1 the destinations): each row with the
self-loops `0 … 99999` appended (`srcIdx`, `dstIdx`); an index word made a gather's start index, negative words
wrapped by the number of nodes (`wrapIdx`); the in-degree of every node, counting its self-loop (`deg`), its inverse
square root where the degree is positive and zero elsewhere (`dinv`), and per edge the product of the two end
points' values (`norm`). The aggregation of a node array `h`: gather the source rows, scale each by its edge's
`norm`, and add every scaled row into its destination node's row of a zero array (`agg64`, `agg32`: the same for 64
and for 32 columns). These are the literal compositions of the program's operations, never opened by the proofs
that use them.
-/

noncomputable section

namespace Cert.KernelIdeal.Hand

open Idealize.ShloMosaic Cert.KernelIdeal

variable [Facts]
open Facts₀ Facts

/-- The sources, then the self-loops. -/
def srcIdx (e : IVec S2x1600000 32) : IVec S1700000 32 :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

/-- The destinations, then the self-loops. -/
def dstIdx (e : IVec S2x1600000 32) : IVec S1700000 32 :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- Index words as a gather's start indices: a negative word wrapped by the number of nodes, stood up as a column. -/
def wrapIdx (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Index words as a scatter's indices: stood up as a column. -/
def colIdx (s : IVec S1700000 32) : IVec S1700000x1 32 :=
  broadcastInDim S1700000x1 ![0] bcast_S1700000_S1700000x1_0 s

/-- Every node's in-degree, its self-loop counted. -/
def deg (e : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (colIdx (dstIdx e))
    (broadcastInDim S1700000 ![] bcast_S_S1700000 (constant (F := Ideal) S_ .f32 0x3F800000#32))

/-- The inverse square root of the degree where it is positive, zero elsewhere. -/
def dinv (e : IVec S2x1600000 32) : FVec Ideal S100000 .f32 :=
  select (cmpf .ogt (deg e) (broadcastInDim S100000 ![] bcast_S_S100000 (constant (F := Ideal) S_ .f32 0x00000000#32)))
    (Host.rsqrt (F := Ideal) (deg e))
    (broadcastInDim S100000 ![] bcast_S_S100000 (constant (F := Ideal) S_ .f32 0x00000000#32))

/-- Per edge, the product of its two end points' inverse square roots. -/
def norm (e : IVec S2x1600000 32) : FVec Ideal S1700000 .f32 :=
  mulf (Host.gather gather_S100000_S1700000x1_S1700000_n_0_n_n_0_1_1 (dinv e) (wrapIdx (srcIdx e)))
    (Host.gather gather_S100000_S1700000x1_S1700000_n_0_n_n_0_1_1 (dinv e) (wrapIdx (dstIdx e)))

/-- The aggregation of a 64-column node array. -/
def agg64 (e : IVec S2x1600000 32) (h : FVec Ideal S100000x64 .f32) :
    FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (colIdx (dstIdx e))
    (mulf (Host.gather gather_S100000x64_S1700000x1_S1700000x64_1_0_n_n_0_1_164 h (wrapIdx (srcIdx e)))
      (broadcastInDim S1700000x64 ![0, 1] bcast_S1700000x1_S1700000x64_0_1
        (broadcastInDim S1700000x1 ![0] bcast_S1700000_S1700000x1_0 (norm e))))

/-- The aggregation of a 32-column node array. -/
def agg32 (e : IVec S2x1600000 32) (h : FVec Ideal S100000x32 .f32) :
    FVec Ideal S100000x32 .f32 :=
  Host.scatterAdd (F := Ideal) scatter_S100000x32_S1700000x1_S1700000x32_1_0_0_1
    (broadcastInDim S100000x32 ![] bcast_S_S100000x32 (constant (F := Ideal) S_ .f32 0x00000000#32))
    (colIdx (dstIdx e))
    (mulf (Host.gather gather_S100000x32_S1700000x1_S1700000x32_1_0_n_n_0_1_132 h (wrapIdx (srcIdx e)))
      (broadcastInDim S1700000x32 ![0, 1] bcast_S1700000x1_S1700000x32_0_1
        (broadcastInDim S1700000x1 ![0] bcast_S1700000_S1700000x1_0 (norm e))))

end Cert.KernelIdeal.Hand

end
-- ==== Proof.KerHost.lean ====
import proofs.«107355_j11166914969680_1_alg».proof.Proof.Gen.KernelIdeal.Frame
import proofs.«107355_j11166914969680_1_alg».proof.Proof.KAgg
import Idealize.ShloMosaic.Lib.StableHlo.Run

/-!
# The host operations between the kernel program's regions, read at the buffers the regions take

The run's buffer contents are a fold from the launch memory: three stretches of host operations, region 0, a
stretch, regions 1 and 2, a stretch, region 3. Read here, stretch by stretch: the index and edge-weight arrays the
first stretches compute from the edge array (kept by everything after them), the aggregation a later stretch
computes from the region's output before it, the bias vector stood up as a row, and the argument arrays, which
nothing writes.
-/

noncomputable section

namespace Cert.KernelIdeal.Hand

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-- The edge array as launched. -/
abbrev edges : IVec S2x1600000 32 := m ((c : Thread nD τ).loc main_arg1)

/-! ## The first three stretches: what region 0 is entered with -/

theorem W3_v5 : W3 m ρ c (Proc.devRef .tc main_v5) = srcIdx (edges m c) := by
  show StableHlo.after hostOps0_2 (StableHlo.after hostOps0_1 (StableHlo.after hostOps0 (W0 m ρ c))) (Proc.devRef .tc main_v5) = _
  dsimp only [hostOps0, hostOps0_1, hostOps0_2]
  after_results
  rfl

theorem W3_v6 : W3 m ρ c (Proc.devRef .tc main_v6) = dstIdx (edges m c) := by
  show StableHlo.after hostOps0_2 (StableHlo.after hostOps0_1 (StableHlo.after hostOps0 (W0 m ρ c))) (Proc.devRef .tc main_v6) = _
  dsimp only [hostOps0, hostOps0_1, hostOps0_2]
  after_results
  rfl

/-! ## The first stretch, value by value -/

set_option maxHeartbeats 1000000 in
theorem W1_v10 : W1 m ρ c (Proc.devRef .tc main_v10) = deg (edges m c) := by
  show StableHlo.after hostOps0 (W0 m ρ c) (Proc.devRef .tc main_v10) = _
  dsimp only [hostOps0]
  after_results
  rfl

set_option maxHeartbeats 1000000 in
theorem W1_v12 : W1 m ρ c (Proc.devRef .tc main_v12)
    = cmpf .ogt (deg (edges m c)) (broadcastInDim S100000 ![] bcast_S_S100000 (constant (F := Ideal) S_ .f32 0x00000000#32)) := by
  show StableHlo.after hostOps0 (W0 m ρ c) (Proc.devRef .tc main_v12) = _
  dsimp only [hostOps0]
  after_results
  rfl

set_option maxHeartbeats 1000000 in
theorem W1_v13 : W1 m ρ c (Proc.devRef .tc main_v13) = Host.rsqrt (F := Ideal) (φ := .f32) (deg (edges m c)) := by
  show StableHlo.after hostOps0 (W0 m ρ c) (Proc.devRef .tc main_v13) = _
  dsimp only [hostOps0]
  after_results
  rfl

set_option maxHeartbeats 1000000 in
theorem W1_v14 : W1 m ρ c (Proc.devRef .tc main_v14)
    = broadcastInDim S100000 ![] bcast_S_S100000 (constant (F := Ideal) S_ .f32 0x00000000#32) := by
  show StableHlo.after hostOps0 (W0 m ρ c) (Proc.devRef .tc main_v14) = _
  dsimp only [hostOps0]
  after_results

set_option maxHeartbeats 1000000 in
theorem W1_v5 : W1 m ρ c (Proc.devRef .tc main_v5) = srcIdx (edges m c) := by
  show StableHlo.after hostOps0 (W0 m ρ c) (Proc.devRef .tc main_v5) = _
  dsimp only [hostOps0]
  after_results
  rfl

set_option maxHeartbeats 1000000 in
theorem W1_v6 : W1 m ρ c (Proc.devRef .tc main_v6) = dstIdx (edges m c) := by
  show StableHlo.after hostOps0 (W0 m ρ c) (Proc.devRef .tc main_v6) = _
  dsimp only [hostOps0]
  after_results
  rfl

theorem W2_v5 : W2 m ρ c (Proc.devRef .tc main_v5) = srcIdx (edges m c) := by
  refine Eq.trans ?_ (W1_v5 m ρ c)
  show StableHlo.after hostOps0_1 (W1 m ρ c) (Proc.devRef .tc main_v5) = W1 m ρ c (Proc.devRef .tc main_v5)
  generalize W1 m ρ c = V
  dsimp only [hostOps0_1]
  after_results

theorem W2_v6 : W2 m ρ c (Proc.devRef .tc main_v6) = dstIdx (edges m c) := by
  refine Eq.trans ?_ (W1_v6 m ρ c)
  show StableHlo.after hostOps0_1 (W1 m ρ c) (Proc.devRef .tc main_v6) = W1 m ρ c (Proc.devRef .tc main_v6)
  generalize W1 m ρ c = V
  dsimp only [hostOps0_1]
  after_results

end Cert.KernelIdeal.Hand

end
-- ==== Proof.KerHost2.lean ====
import proofs.«107355_j11166914969680_1_alg».proof.Proof.Gen.KernelIdeal.Frame
import proofs.«107355_j11166914969680_1_alg».proof.Proof.KAgg
import proofs.«107355_j11166914969680_1_alg».proof.Proof.KerHost
import Idealize.ShloMosaic.Lib.StableHlo.Run

/-!
# The host operations between the kernel program's regions, continued

The edge weights out of the first three stretches, and then, stretch by stretch, what every later region is entered
with: the aggregation of the region's output before it, the bias vector stood up as a row, and the arrays that are
only carried along.
-/

noncomputable section

namespace Cert.KernelIdeal.Hand

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-! ## The edge weights -/

theorem W2_v15 : W2 m ρ c (Proc.devRef .tc main_v15) = dinv (edges m c) := by
  have h12 := W1_v12 m ρ c
  have h13 := W1_v13 m ρ c
  have h14 := W1_v14 m ρ c
  show StableHlo.after hostOps0_1 (W1 m ρ c) (Proc.devRef .tc main_v15) = _
  generalize W1 m ρ c = V at h12 h13 h14 ⊢
  dsimp only [hostOps0_1]
  after_results
  rw [h12, h13, h14]
  unfold dinv
  exact cast_eq _ _

set_option maxHeartbeats 1000000 in
theorem W3_v30 : W3 m ρ c (Proc.devRef .tc main_v30) = norm (edges m c) := by
  have h15 := W2_v15 m ρ c
  have h5 := W2_v5 m ρ c
  have h6 := W2_v6 m ρ c
  show StableHlo.after hostOps0_2 (W2 m ρ c) (Proc.devRef .tc main_v30) = _
  generalize W2 m ρ c = V at h15 h5 h6 ⊢
  dsimp only [hostOps0_2]
  after_results
  rw [h15, h5, h6]
  unfold norm wrapIdx
  rfl

/-- A buffer none of the first three stretches writes is as launched when region 0 is entered. -/
local macro "keep_to_launch" : tactic =>
  `(tactic| (show StableHlo.after hostOps0_2 (StableHlo.after hostOps0_1 (StableHlo.after hostOps0 (W0 _ _ _))) _ = _
             dsimp only [hostOps0, hostOps0_1, hostOps0_2]
             after_results))

theorem W3_arg0 : W3 m ρ c (Proc.devRef .tc main_arg0) = m ((c : Thread nD τ).loc main_arg0) := by keep_to_launch
theorem W3_arg2 : W3 m ρ c (Proc.devRef .tc main_arg2) = m ((c : Thread nD τ).loc main_arg2) := by keep_to_launch
theorem W3_arg3 : W3 m ρ c (Proc.devRef .tc main_arg3) = m ((c : Thread nD τ).loc main_arg3) := by keep_to_launch
theorem W3_arg4 : W3 m ρ c (Proc.devRef .tc main_arg4) = m ((c : Thread nD τ).loc main_arg4) := by keep_to_launch
theorem W3_arg5 : W3 m ρ c (Proc.devRef .tc main_arg5) = m ((c : Thread nD τ).loc main_arg5) := by keep_to_launch

/-! ## Region 0 writes only its output array -/

theorem W4_v5 : W4 m ρ c (Proc.devRef .tc main_v5) = srcIdx (edges m c) :=
  (W4_of_ne m ρ c main_v5 (by decide)).trans (W3_v5 m ρ c)
theorem W4_v6 : W4 m ρ c (Proc.devRef .tc main_v6) = dstIdx (edges m c) :=
  (W4_of_ne m ρ c main_v6 (by decide)).trans (W3_v6 m ρ c)
theorem W4_v30 : W4 m ρ c (Proc.devRef .tc main_v30) = norm (edges m c) :=
  (W4_of_ne m ρ c main_v30 (by decide)).trans (W3_v30 m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-! ## The stretch before region 1: the first aggregation, and the first bias stood up as a row -/

set_option maxHeartbeats 1000000 in
theorem W5_v44 : W5 m ρ c (Proc.devRef .tc main_v44) = agg64 (edges m c) (W4 m ρ c (Proc.devRef .tc main_v31)) := by
  show StableHlo.after hostOps1 (W4 m ρ c) (Proc.devRef .tc main_v44) = _
  dsimp only [hostOps1]
  after_results
  rw [W4_v5 m ρ c, W4_v6 m ρ c, W4_v30 m ρ c]
  unfold agg64 colIdx wrapIdx
  rfl

theorem W5_v45 : W5 m ρ c (Proc.devRef .tc main_v45)
    = shapeCast S1x64 (m ((c : Thread nD τ).loc main_arg3) : FVec Ideal S64 .f32) shapeCasts_S64_S1x64 := by
  show StableHlo.after hostOps1 (W4 m ρ c) (Proc.devRef .tc main_v45) = _
  dsimp only [hostOps1]
  after_results
  rw [W4_arg3 m ρ c]
  rfl

/-- A buffer the stretch before region 1 does not write keeps its contents through it. -/
local macro "keep_1" : tactic =>
  `(tactic| (show StableHlo.after hostOps1 (W4 _ _ _) _ = _
             dsimp only [hostOps1]
             after_results))

theorem W5_v5 : W5 m ρ c (Proc.devRef .tc main_v5) = srcIdx (edges m c) :=
  (by keep_1 : W5 m ρ c (Proc.devRef .tc main_v5) = W4 m ρ c (Proc.devRef .tc main_v5)).trans (W4_v5 m ρ c)
theorem W5_v6 : W5 m ρ c (Proc.devRef .tc main_v6) = dstIdx (edges m c) :=
  (by keep_1 : W5 m ρ c (Proc.devRef .tc main_v6) = W4 m ρ c (Proc.devRef .tc main_v6)).trans (W4_v6 m ρ c)
theorem W5_v30 : W5 m ρ c (Proc.devRef .tc main_v30) = norm (edges m c) :=
  (by keep_1 : W5 m ρ c (Proc.devRef .tc main_v30) = W4 m ρ c (Proc.devRef .tc main_v30)).trans (W4_v30 m ρ c)
theorem W5_arg4 : W5 m ρ c (Proc.devRef .tc main_arg4) = m ((c : Thread nD τ).loc main_arg4) :=
  (by keep_1 : W5 m ρ c (Proc.devRef .tc main_arg4) = W4 m ρ c (Proc.devRef .tc main_arg4)).trans (W4_arg4 m ρ c)
theorem W5_arg5 : W5 m ρ c (Proc.devRef .tc main_arg5) = m ((c : Thread nD τ).loc main_arg5) :=
  (by keep_1 : W5 m ρ c (Proc.devRef .tc main_arg5) = W4 m ρ c (Proc.devRef .tc main_arg5)).trans (W4_arg5 m ρ c)

/-! ## Regions 1 and 2 write only their output arrays -/

theorem W6_arg4 : W6 m ρ c (Proc.devRef .tc main_arg4) = m ((c : Thread nD τ).loc main_arg4) :=
  (W6_of_ne m ρ c main_arg4 (by decide)).trans (W5_arg4 m ρ c)
theorem W7_v5 : W7 m ρ c (Proc.devRef .tc main_v5) = srcIdx (edges m c) :=
  (W7_of_ne m ρ c main_v5 (by decide)).trans ((W6_of_ne m ρ c main_v5 (by decide)).trans (W5_v5 m ρ c))
theorem W7_v6 : W7 m ρ c (Proc.devRef .tc main_v6) = dstIdx (edges m c) :=
  (W7_of_ne m ρ c main_v6 (by decide)).trans ((W6_of_ne m ρ c main_v6 (by decide)).trans (W5_v6 m ρ c))
theorem W7_v30 : W7 m ρ c (Proc.devRef .tc main_v30) = norm (edges m c) :=
  (W7_of_ne m ρ c main_v30 (by decide)).trans ((W6_of_ne m ρ c main_v30 (by decide)).trans (W5_v30 m ρ c))
theorem W7_arg5 : W7 m ρ c (Proc.devRef .tc main_arg5) = m ((c : Thread nD τ).loc main_arg5) :=
  (W7_of_ne m ρ c main_arg5 (by decide)).trans ((W6_of_ne m ρ c main_arg5 (by decide)).trans (W5_arg5 m ρ c))

/-! ## The stretch before region 3: the second aggregation, and the second bias stood up as a row -/

set_option maxHeartbeats 1000000 in
theorem W8_v60 : W8 m ρ c (Proc.devRef .tc main_v60) = agg32 (edges m c) (W7 m ρ c (Proc.devRef .tc main_v47)) := by
  show StableHlo.after hostOps3 (W7 m ρ c) (Proc.devRef .tc main_v60) = _
  dsimp only [hostOps3]
  after_results
  rw [W7_v5 m ρ c, W7_v6 m ρ c, W7_v30 m ρ c]
  unfold agg32 colIdx wrapIdx
  rfl

theorem W8_v61 : W8 m ρ c (Proc.devRef .tc main_v61)
    = shapeCast S1x32 (m ((c : Thread nD τ).loc main_arg5) : FVec Ideal S32 .f32) shapeCasts_S32_S1x32 := by
  show StableHlo.after hostOps3 (W7 m ρ c) (Proc.devRef .tc main_v61) = _
  dsimp only [hostOps3]
  after_results
  rw [W7_arg5 m ρ c]
  rfl

end Cert.KernelIdeal.Hand

end
-- ==== Proof.KerRun.lean ====
import proofs.«107355_j11166914969680_1_alg».proof.Proof.Gen.KernelIdeal.Frame

/-!
# The kernel program's run, with its result named

The generated frame run ends with every unscoped buffer of a core at the contents the last region leaves
(`Gen.W9`: the fold of the host operations and of the four regions' write-backs from the launch memory). Reading
that final state at the result buffer as well as at the six arguments gives the run this file states: the result
array ends at `Gen.W9` there, and the arguments end as launched.
-/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at what the last region's
    write-backs leave there, and the six argument arrays end as launched. -/
theorem run_out : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Hand

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibDenseTile.lean ====
import Idealize.ShloMosaic.Lib.ValueLayout
import Idealize.ShloMosaic.PureOps.Ideal.Laws
import proofs.«107355_j11166914969680_1_alg».proof.Proof.LibPlainDot

/-!
# A dense layer on a tile of rows

A tile `[M, K]` of rows times a weight matrix `[K, N]` into a zero accumulator, plus a bias vector `[N]` stood up as
one row `[1, N]` and repeated down the `M` rows, read at `(p, q)` over the extended reals: the plain sum
`∑ k < K, l (p, k) · w (k, q)` plus `b q`. Changes of float format on the way into the product are the identity there,
so the operands may carry any formats. Any `M`, `K`, `N`.
-/

noncomputable section

namespace Cert.LibDenseTile

open Idealize.ShloMosaic Idealize.ShloMosaic.ValueIdx
open scoped BigOperators

/-- A bias vector `[N]` stood up as a row and repeated down `M` rows reads, at `(p, q)`, its entry `q`. -/
theorem biasRows_apply {α : Type} {M N : Nat} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc (0 : Fin 1) q)

/-- The dense layer at `(p, q)`: the row's product with column `q`, plus the bias there. -/
theorem dense_apply {M K N : Nat} {φ₁ φ₂ : FTy} (d : DotDims ⟨2, ![M, K]⟩ ⟨2, ![K, N]⟩ ⟨2, ![M, N]⟩)
    (hd : LibPlainDot.Plain d) (prec : Option ContractPrecision)
    (l : FVec Ideal ⟨2, ![M, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul d prec l w (constant ⟨2, ![M, N]⟩ .f32 0x00000000#32))
        (broadcastTo ⟨2, ![M, N]⟩ (shapeCast ⟨2, ![1, N]⟩ b hc) hb) (ix2 p q)
      = (∑ k : Fin K, l (ix2 p k) * w (ix2 k q)) + b (ix1 q) := by
  rw [addf_apply, biasRows_apply b hc hb p q]
  exact congrArg (· + b (ix1 q)) (LibPlainDot.matmul_zero_apply d hd prec l w p q)

end Cert.LibDenseTile

end
-- ==== Proof.LibRowLayers.lean ====
import Idealize.ShloMosaic.Lib.ValueIdx
import Idealize.ShloMosaic.Lib.ValueLayout
import Idealize.ShloMosaic.Lib.Pipeline.Value
import Idealize.ShloMosaic.PureOps.Ideal.Laws
import proofs.«107355_j11166914969680_1_alg».proof.Proof.LibPlainDot
import proofs.«107355_j11166914969680_1_alg».proof.Proof.LibDenseTile

/-!
# The dense stages of a two-layer graph convolution, as whole-array functions

Over the extended reals a graph-convolution layer is: multiply every node's feature row by a weight matrix, send each
row along the edges scaled by the edge weight and add what arrives at each node, add a bias row, and (in the first
layer) keep the positive part. The edge step is the same on both sides of the comparison and is never opened here.
This file names the dense steps index by index, for any number of rows:

* `rowsTimes x w`: entry `(p, q)` is `∑ k, x (p, k) · w (k, q)`;
* `addRow y b`: entry `(p, q)` is `y (p, q) + b q`;
* `reluRow y b`: entry `(p, q)` is `max (y (p, q) + b q) 0`.

A product computed tile of rows by tile of rows and one computed on the whole array have the same entries, because an
entry only depends on its own row; likewise for the two bias steps. The matrix unit's product into a zero accumulator
and the host's `dot_general` are both `rowsTimes`.
-/

noncomputable section

namespace Cert.Layers

open Idealize.ShloMosaic Idealize.ShloMosaic.ValueIdx
open scoped BigOperators

/-- Offsets that are all zero, however they are spelt. -/
theorem zeros2 : (![0, 0] : Fin 2 → Nat) = fun _ => 0 := funext fun a => by fin_cases a <;> rfl
theorem zeros1 : (![0] : Fin 1 → Nat) = fun _ => 0 := funext fun a => by fin_cases a; rfl

variable {M K N : Nat}

/-- Every row of `x` times the matrix `w`. -/
def rowsTimes (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply (x : (⟨2, ![M, K]⟩ : Shape).Idx → EReal) (w : (⟨2, ![K, N]⟩ : Shape).Idx → EReal)
    (p : Fin M) (q : Fin N) : rowsTimes x w (ix2 p q) = ∑ k : Fin K, x (ix2 p k) * w (ix2 k q) := rfl

/-- The bias row `b` added to every row of `y`. -/
def addRow (y : (⟨2, ![M, N]⟩ : Shape).Idx → EReal) (b : (⟨1, ![N]⟩ : Shape).Idx → EReal) :
    (⟨2, ![M, N]⟩ : Shape).Idx → EReal :=
  fun i => y i + b (ix1 (i 1))

theorem addRow_apply (y : (⟨2, ![M, N]⟩ : Shape).Idx → EReal) (b : (⟨1, ![N]⟩ : Shape).Idx → EReal)
    (p : Fin M) (q : Fin N) : addRow y b (ix2 p q) = y (ix2 p q) + b (ix1 q) := rfl

/-- The positive part of `y` plus the bias row. -/
def reluRow (y : (⟨2, ![M, N]⟩ : Shape).Idx → EReal) (b : (⟨1, ![N]⟩ : Shape).Idx → EReal) :
    (⟨2, ![M, N]⟩ : Shape).Idx → EReal :=
  fun i => max (y i + b (ix1 (i 1))) 0

theorem reluRow_apply (y : (⟨2, ![M, N]⟩ : Shape).Idx → EReal) (b : (⟨1, ![N]⟩ : Shape).Idx → EReal)
    (p : Fin M) (q : Fin N) : reluRow y b (ix2 p q) = max (y (ix2 p q) + b (ix1 q)) 0 := rfl

/-- The matrix unit's product into a zero accumulator is `rowsTimes`, whatever float formats its operands carry. -/
theorem matmul_zero_eq {φ₁ φ₂ : FTy} (d : DotDims ⟨2, ![M, K]⟩ ⟨2, ![K, N]⟩ ⟨2, ![M, N]⟩) (h : LibPlainDot.Plain d)
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = rowsTimes l r := by
  funext i
  obtain ⟨p, q, rfl⟩ : ∃ (p : Fin M) (q : Fin N), i = ix2 p q := ⟨i 0, i 1, eq_ix2 i⟩
  exact LibPlainDot.matmul_zero_apply d h prec l r p q

/-- The host's `dot_general` is `rowsTimes`. -/
theorem dotGeneral_eq {φ₁ φ₂ : FTy} (d : DotDims ⟨2, ![M, K]⟩ ⟨2, ![K, N]⟩ ⟨2, ![M, N]⟩) (h : LibPlainDot.Plain d)
    (prec : Option ContractPrecision) (sched : HostSchedule) (l : FVec Ideal ⟨2, ![M, K]⟩ φ₁) (r : FVec Ideal ⟨2, ![K, N]⟩ φ₂) :
    FloatOps.dotGeneral d prec sched l r = rowsTimes l r := by
  funext i
  obtain ⟨p, q, rfl⟩ : ∃ (p : Fin M) (q : Fin N), i = ix2 p q := ⟨i 0, i 1, eq_ix2 i⟩
  exact LibPlainDot.dotGeneral_apply d h prec sched l r p q

/-- A tile's rows plus a bias vector stood up as a row and repeated down the tile: entry `(p, q)` gets `b q`. -/
theorem tile_addBias_apply (y : FVec Ideal ⟨2, ![M, N]⟩ .f32) (b : FVec Ideal ⟨1, ![N]⟩ .f32)
    (hs : (⟨2, ![M, N]⟩ : Shape).ShapeCasts ⟨2, ![M, N]⟩)
    (hc : (⟨1, ![N]⟩ : Shape).ShapeCasts ⟨2, ![1, N]⟩) (hb : (⟨2, ![1, N]⟩ : Shape).Broadcasts ⟨2, ![M, N]⟩)
    (p : Fin M) (q : Fin N) :
    addf (shapeCast ⟨2, ![M, N]⟩ y hs) (broadcastTo ⟨2, ![M, N]⟩ (shapeCast ⟨2, ![1, N]⟩ b hc) hb) (ix2 p q)
      = y (ix2 p q) + b (ix1 q) := by
  rw [addf_apply, LibDenseTile.biasRows_apply b hc hb p q, shapeCast_self]

/-- A bias vector made a one-row array and that row repeated down `M` rows, both by `broadcast_in_dim`: entry `(p, q)`
    is the bias entry `q`. -/
theorem rows_of_vector_apply {α : Type} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![1, N]⟩ ![1] h1 b) (ix2 p q) = b (ix1 q) := by
  have hq : q.val < N := q.isLt
  rw [broadcastInDim_apply ![0, 1] h2 _ (ix2 p q) (ix2 (0 : Fin 1) q) (fun a => by
        match a with
        | ⟨0, _⟩ => show (0 : Nat) = if (1 : Nat) = 1 then 0 else p.val; rw [if_pos rfl]
        | ⟨1, _⟩ => show q.val = if N = 1 then 0 else q.val; by_cases h : N = 1 <;> simp only [h, if_true, if_false, ite_true, ite_false] <;> omega),
    broadcastInDim_apply ![1] h1 b (ix2 (0 : Fin 1) q) (ix1 q) (fun a => by
        match a with
        | ⟨0, _⟩ => show q.val = if N = 1 then 0 else q.val; by_cases h : N = 1 <;> simp only [h, if_true, if_false, ite_true, ite_false] <;> omega)]

/-- Adding that array of repeated bias rows is `addRow`. -/
theorem addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf y (broadcastInDim ⟨2, ![M, N]⟩ ![0, 1] h2 (broadcastInDim ⟨2, ![1, N]⟩ ![1] h1 b)) = addRow y b := by
  funext i
  obtain ⟨p, q, rfl⟩ : ∃ (p : Fin M) (q : Fin N), i = ix2 p q := ⟨i 0, i 1, eq_ix2 i⟩
  rw [addf_apply, rows_of_vector_apply b h1 h2 p q]
  rfl

/-- Its positive part against an array of zeros is `reluRow`. -/
theorem maximumf_addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (z : FVec Ideal ⟨2, ![M, N]⟩ .f32) (hz : ∀ i, z i = 0) :
    maximumf (addf y (broadcastInDim ⟨2, ![M, N]⟩ ![0, 1] h2 (broadcastInDim ⟨2, ![1, N]⟩ ![1] h1 b))) z = reluRow y b := by
  rw [addf_rows_of_vector y b h1 h2]
  funext i
  rw [maximumf_apply, hz i]
  rfl

end Cert.Layers

end
-- ==== Proof.Spec.lean ====
import Idealize.ShloMosaic.Lib.ValueIdx
import Idealize.ShloMosaic.PureOps.Ideal.Laws
import proofs.«107355_j11166914969680_1_alg».proof.Proof.LibRowLayers

/-!
# A two-layer graph convolution with a log-softmax head, as one function of its arguments

Over the extended reals the network is: multiply every node's feature row by a weight matrix (`rowsTimes`), aggregate
along the edges (a function `agg` of the whole array, never opened here), add a bias row and apply the leaky rectifier
`v ↦ v` for `v > 0`, `slope · v` otherwise (`leakyRow`); the same again with the second layer's weights; then, row by
row, subtract the row's maximum and the logarithm of the sum of the exponentials of what is left (`lsmRows`).
Every step after the aggregation produces row `r` of its result from row `r` of its operand alone, so a tile of rows
yields the same entries as the whole array (`leakyRow_row`, `lsmRows_row`).
-/

noncomputable section

namespace Cert.Gcn

open Idealize.ShloMosaic Idealize.ShloMosaic.ValueIdx Cert.Layers
open scoped BigOperators

/-- The float words the two programs share, read as extended reals: zero, the rectifier's slope, and minus infinity. -/
abbrev zeroW : EReal := Ideal.ofBits .f32 0x00000000#32
abbrev slopeW : EReal := Ideal.ofBits .f32 0x3C23D70A#32
abbrev negInfW : EReal := Ideal.ofBits .f32 0xFF800000#32

/-- The leaky rectifier: `v` where `v` is positive, `slope · v` elsewhere. -/
def leaky (v : EReal) : EReal := Scalar.select (Ideal.cmp .ogt v zeroW) v (slopeW * v)

/-- Testing `v ≥ 0` instead of `v > 0` gives the same function: the two branches agree at `v = 0`. -/
theorem leaky_oge (v : EReal) : Scalar.select (Ideal.cmp .oge v zeroW) v (slopeW * v) = leaky v := by
  unfold leaky Ideal.cmp Scalar.select
  show (if BitVec.ofBool (decide (zeroW ≤ v)) = 1 then v else slopeW * v)
     = (if BitVec.ofBool (decide (zeroW < v)) = 1 then v else slopeW * v)
  have hz : zeroW = 0 := Ideal.ofBits_zero_f32
  rw [hz]
  rcases lt_trichotomy (0 : EReal) v with h | h | h
  · simp [h, le_of_lt h]
  · subst h; simp
  · simp [not_le.mpr h, not_lt.mpr (le_of_lt h)]

variable {M T N : Nat}

/-- The bias row `b` added to every row of `y`, then the leaky rectifier. -/
def leakyRow (y : (⟨2, ![M, N]⟩ : Shape).Idx → EReal) (b : (⟨1, ![N]⟩ : Shape).Idx → EReal) :
    (⟨2, ![M, N]⟩ : Shape).Idx → EReal :=
  fun i => leaky (y i + b (ix1 (i 1)))

theorem leakyRow_apply (y : (⟨2, ![M, N]⟩ : Shape).Idx → EReal) (b : (⟨1, ![N]⟩ : Shape).Idx → EReal)
    (p : Fin M) (q : Fin N) : leakyRow y b (ix2 p q) = leaky (y (ix2 p q) + b (ix1 q)) := rfl

/-- The largest entry of row `r`, taken from minus infinity. -/
def rowMax (y : (⟨2, ![M, N]⟩ : Shape).Idx → EReal) (r : Fin M) : EReal :=
  (Finset.univ : Finset (Fin N)).fold max negInfW (fun q => y (ix2 r q))

/-- Row by row: each entry minus the row's maximum, minus the logarithm of the sum over the row of the exponentials
    of those differences. -/
def lsmRows (y : (⟨2, ![M, N]⟩ : Shape).Idx → EReal) : (⟨2, ![M, N]⟩ : Shape).Idx → EReal :=
  fun i => (y i - rowMax y (i 0)) - Ideal.log (∑ q : Fin N, Ideal.exp (y (ix2 (i 0) q) - rowMax y (i 0)))

theorem lsmRows_apply (y : (⟨2, ![M, N]⟩ : Shape).Idx → EReal) (p : Fin M) (q : Fin N) :
    lsmRows y (ix2 p q)
      = (y (ix2 p q) - rowMax y p) - Ideal.log (∑ k : Fin N, Ideal.exp (y (ix2 p k) - rowMax y p)) := rfl

/-- Row `p` of a tile and row `r` of the whole array have the same maximum when they have the same entries. -/
theorem rowMax_row (y : (⟨2, ![M, N]⟩ : Shape).Idx → EReal) (yt : (⟨2, ![T, N]⟩ : Shape).Idx → EReal)
    (p : Fin T) (r : Fin M) (h : ∀ q : Fin N, yt (ix2 p q) = y (ix2 r q)) : rowMax yt p = rowMax y r := by
  unfold rowMax
  exact congrArg (fun f => (Finset.univ : Finset (Fin N)).fold max negInfW f) (funext h)

/-- The bias-and-rectifier step is local to the entry. -/
theorem leakyRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : leakyRow yt b (ix2 p q) = leakyRow y b (ix2 r q) := by
  rw [leakyRow_apply, leakyRow_apply, h]

/-- The log-softmax step is local to the row. -/
theorem lsmRows_row (y : (⟨2, ![M, N]⟩ : Shape).Idx → EReal) (yt : (⟨2, ![T, N]⟩ : Shape).Idx → EReal)
    (p : Fin T) (r : Fin M) (h : ∀ q : Fin N, yt (ix2 p q) = y (ix2 r q)) (q : Fin N) :
    lsmRows yt (ix2 p q) = lsmRows y (ix2 r q) := by
  rw [lsmRows_apply, lsmRows_apply, rowMax_row y yt p r h, h q]
  exact congrArg (fun s => (y (ix2 r q) - rowMax y r) - Ideal.log s)
    (Finset.sum_congr rfl fun k _ => by rw [h k])

/-- The whole network, the two edge aggregations as parameters. -/
def gcn {Fi H C : Nat}
    (agg1 : ((⟨2, ![M, H]⟩ : Shape).Idx → EReal) → (⟨2, ![M, H]⟩ : Shape).Idx → EReal)
    (agg2 : ((⟨2, ![M, C]⟩ : Shape).Idx → EReal) → (⟨2, ![M, C]⟩ : Shape).Idx → EReal)
    (x : (⟨2, ![M, Fi]⟩ : Shape).Idx → EReal) (w1 : (⟨2, ![Fi, H]⟩ : Shape).Idx → EReal)
    (b1 : (⟨1, ![H]⟩ : Shape).Idx → EReal) (w2 : (⟨2, ![H, C]⟩ : Shape).Idx → EReal)
    (b2 : (⟨1, ![C]⟩ : Shape).Idx → EReal) : (⟨2, ![M, C]⟩ : Shape).Idx → EReal :=
  lsmRows (leakyRow (agg2 (rowsTimes (leakyRow (agg1 (rowsTimes x w1)) b1) w2)) b2)

end Cert.Gcn

end
-- ==== Proof.LibRowTile.lean ====
import Idealize.ShloMosaic.Lib.ValueIdx
import Idealize.ShloMosaic.Lib.ValueLayout
import Idealize.ShloMosaic.Lib.Pipeline.Value
import Idealize.ShloMosaic.PureOps.Ideal.Laws
import proofs.«107355_j11166914969680_1_alg».proof.Proof.LibPlainDot
import proofs.«107355_j11166914969680_1_alg».proof.Proof.LibRowLayers

/-!
# Dense layers computed one tile of rows at a time

The three dense steps `rowsTimes`, `addRow`, `reluRow` produce row `r` of their result from row `r` of their first
operand alone. So a tile of `T` rows whose row `p` is row `r` of an `[M, K]` array yields, in its row `p`, row `r` of what
the same step yields on the whole array (`rowsTimes_row`, `addRow_row`, `reluRow_row`).

The bias may arrive as a one-row array `[1, N]` instead of a vector: `rowVec` names its row as a vector, and the vector
unit's spelling of "add the row to every row of the tile" and "then keep the positive part" are `addRow` / `reluRow` of
that vector at the ideal instance, for any number of rows (`addf_bcastRow`, `maximumf_addf_bcastRow`). A change of float
format is the identity there (`truncf_eq`). A vector stood up as a one-row array has that vector as its row
(`rowVec_shapeCast`).
-/

noncomputable section

namespace Cert.RowTile

open Idealize.ShloMosaic Idealize.ShloMosaic.ValueIdx Cert.Layers
open scoped BigOperators

variable {M T K N : Nat}

/-- Row `p` of a product of a tile is row `r` of the product of the whole array, when the tile's row `p` is the
    array's row `r`. -/
theorem rowsTimes_row (A : (⟨2, ![M, K]⟩ : Shape).Idx → EReal) (At : (⟨2, ![T, K]⟩ : Shape).Idx → EReal)
    (w : (⟨2, ![K, N]⟩ : Shape).Idx → EReal) (p : Fin T) (r : Fin M)
    (h : ∀ k : Fin K, At (ix2 p k) = A (ix2 r k)) (q : Fin N) :
    rowsTimes At w (ix2 p q) = rowsTimes A w (ix2 r q) := by
  rw [rowsTimes_apply, rowsTimes_apply]
  exact Finset.sum_congr rfl fun k _ => by rw [h k]

/-- The same for the bias step. -/
theorem addRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : addRow yt b (ix2 p q) = addRow y b (ix2 r q) := by
  rw [addRow_apply, addRow_apply, h]

/-- The same for the bias step followed by the positive part. -/
theorem reluRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : reluRow yt b (ix2 p q) = reluRow y b (ix2 r q) := by
  rw [reluRow_apply, reluRow_apply, h]

/-- The one row of a `[1, N]` array, as a vector. -/
def rowVec (b : (⟨2, ![1, N]⟩ : Shape).Idx → EReal) : (⟨1, ![N]⟩ : Shape).Idx → EReal :=
  fun i => b (ix2 (0 : Fin 1) (i 0))

theorem rowVec_apply (b : (⟨2, ![1, N]⟩ : Shape).Idx → EReal) (q : Fin N) : rowVec b (ix1 q) = b (ix2 (0 : Fin 1) q) := rfl

/-- A vector stood up as a one-row array has the vector as its row. -/
theorem rowVec_shapeCast (b : (⟨1, ![N]⟩ : Shape).Idx → EReal) (hc : (⟨1, ![N]⟩ : Shape).ShapeCasts ⟨2, ![1, N]⟩) :
    rowVec (shapeCast ⟨2, ![1, N]⟩ b hc) = b := by
  funext i
  obtain ⟨q, rfl⟩ : ∃ q : Fin N, i = ix1 q := ⟨i 0, eq_ix1 i⟩
  exact shapeCast_a_1a_apply b hc (0 : Fin 1) q

/-- At the ideal instance a change of float format leaves every entry as it is. -/
theorem truncf_eq {s : Shape} {φ ψ : FTy} (a : FVec Ideal s φ) (h : ψ.bits < φ.bits) :
    (truncf ψ a h : FVec Ideal s ψ) = a := rfl

/-- The vector unit's "add the one-row array to every row of the tile" is `addRow` of that row. -/
theorem addf_bcastRow (y : FVec Ideal ⟨2, ![M, N]⟩ .f32) (brow : FVec Ideal ⟨2, ![1, N]⟩ .f32)
    (hb : (⟨2, ![1, N]⟩ : Shape).Broadcasts ⟨2, ![M, N]⟩) :
    addf y (broadcastTo ⟨2, ![M, N]⟩ brow hb) = addRow y (rowVec brow) := by
  funext i
  obtain ⟨p, q, rfl⟩ : ∃ (p : Fin M) (q : Fin N), i = ix2 p q := ⟨i 0, i 1, eq_ix2 i⟩
  rw [addf_apply, broadcastTo_1b_ab_apply brow hb p q]
  rfl

/-- Followed by the maximum with a tile of zeros it is `reluRow` of that row. -/
theorem maximumf_addf_bcastRow (y : FVec Ideal ⟨2, ![M, N]⟩ .f32) (brow : FVec Ideal ⟨2, ![1, N]⟩ .f32)
    (hb : (⟨2, ![1, N]⟩ : Shape).Broadcasts ⟨2, ![M, N]⟩) :
    maximumf (addf y (broadcastTo ⟨2, ![M, N]⟩ brow hb))
        (broadcast ⟨2, ![M, N]⟩ (Scalar.ofBits (F := Ideal) .f32 0x00000000#32))
      = reluRow y (rowVec brow) := by
  rw [addf_bcastRow y brow hb]
  funext i
  rw [maximumf_apply, broadcast_apply]
  show max _ (Ideal.ofBits .f32 0x00000000#32) = _
  rw [Ideal.ofBits_zero_f32]
  rfl

end Cert.RowTile

end
-- ==== Proof.RegionCommon.lean ====
import proofs.«107355_j11166914969680_1_alg».proof.Proof.Spec
import proofs.«107355_j11166914969680_1_alg».proof.Proof.LibRowTile

/-!
# A tile of rows against the whole array

The three dense steps of the network (a product with a weight matrix, a bias row followed by the leaky rectifier, and
the row-wise log-softmax of that) produce row `r` of their result from row `r` of their operand alone. So when a tile
of `T` rows holds rows `off … off + T - 1` of an `[M, ·]` array, and the small second operand is the same on both sides,
entry `(p, q)` of the step applied to the tile is entry `(off + p, q)` of the step applied to the whole array. Stated
with the two indices as variables and their coordinates related by equations between numbers.
-/

noncomputable section

namespace Cert.KernelIdeal.Hand

open Idealize.ShloMosaic Idealize.ShloMosaic.ValueIdx Cert.Layers Cert.Gcn Cert.RowTile

variable {M T K N : Nat}

/-- A product of a tile of rows is the same rows of the product of the whole array. -/
theorem rowsTimes_tile (A : (⟨2, ![M, K]⟩ : Shape).Idx → EReal) (At : (⟨2, ![T, K]⟩ : Shape).Idx → EReal)
    (w wt : (⟨2, ![K, N]⟩ : Shape).Idx → EReal) (hw : wt = w) (off : Nat)
    (hA : ∀ (p : Fin T) (r : Fin M) (k : Fin K), r.val = off + p.val → At (ix2 p k) = A (ix2 r k))
    (j : (⟨2, ![T, N]⟩ : Shape).Idx) (i : (⟨2, ![M, N]⟩ : Shape).Idx)
    (h0 : (i 0).val = off + (j 0).val) (h1 : (i 1).val = (j 1).val) :
    rowsTimes At wt j = rowsTimes A w i := by
  subst hw
  obtain ⟨p, q, rfl⟩ : ∃ (p : Fin T) (q : Fin N), j = ix2 p q := ⟨j 0, j 1, eq_ix2 j⟩
  obtain ⟨r, s, rfl⟩ : ∃ (r : Fin M) (s : Fin N), i = ix2 r s := ⟨i 0, i 1, eq_ix2 i⟩
  obtain rfl : s = q := Fin.ext h1
  exact rowsTimes_row A At wt p r (fun k => hA p r k h0) s

/-- The bias row and the rectifier on a tile of rows are the same rows of that step on the whole array. -/
theorem leakyRow_tile (y : (⟨2, ![M, N]⟩ : Shape).Idx → EReal) (yt : (⟨2, ![T, N]⟩ : Shape).Idx → EReal)
    (b bt : (⟨2, ![1, N]⟩ : Shape).Idx → EReal) (hb : bt = b) (off : Nat)
    (hy : ∀ (p : Fin T) (r : Fin M) (q : Fin N), r.val = off + p.val → yt (ix2 p q) = y (ix2 r q))
    (j : (⟨2, ![T, N]⟩ : Shape).Idx) (i : (⟨2, ![M, N]⟩ : Shape).Idx)
    (h0 : (i 0).val = off + (j 0).val) (h1 : (i 1).val = (j 1).val) :
    leakyRow yt (rowVec bt) j = leakyRow y (rowVec b) i := by
  subst hb
  obtain ⟨p, q, rfl⟩ : ∃ (p : Fin T) (q : Fin N), j = ix2 p q := ⟨j 0, j 1, eq_ix2 j⟩
  obtain ⟨r, s, rfl⟩ : ∃ (r : Fin M) (s : Fin N), i = ix2 r s := ⟨i 0, i 1, eq_ix2 i⟩
  obtain rfl : s = q := Fin.ext h1
  exact leakyRow_row y yt (rowVec bt) p r s (hy p r s h0)

/-- The same for the bias row, the rectifier and then the row-wise log-softmax. -/
theorem lsm_leakyRow_tile (y : (⟨2, ![M, N]⟩ : Shape).Idx → EReal) (yt : (⟨2, ![T, N]⟩ : Shape).Idx → EReal)
    (b bt : (⟨2, ![1, N]⟩ : Shape).Idx → EReal) (hb : bt = b) (off : Nat)
    (hy : ∀ (p : Fin T) (r : Fin M) (q : Fin N), r.val = off + p.val → yt (ix2 p q) = y (ix2 r q))
    (j : (⟨2, ![T, N]⟩ : Shape).Idx) (i : (⟨2, ![M, N]⟩ : Shape).Idx)
    (h0 : (i 0).val = off + (j 0).val) (h1 : (i 1).val = (j 1).val) :
    lsmRows (leakyRow yt (rowVec bt)) j = lsmRows (leakyRow y (rowVec b)) i := by
  subst hb
  obtain ⟨p, q, rfl⟩ : ∃ (p : Fin T) (q : Fin N), j = ix2 p q := ⟨j 0, j 1, eq_ix2 j⟩
  obtain ⟨r, s, rfl⟩ : ∃ (r : Fin M) (s : Fin N), i = ix2 r s := ⟨i 0, i 1, eq_ix2 i⟩
  obtain rfl : s = q := Fin.ext h1
  exact lsmRows_row (leakyRow y (rowVec bt)) (leakyRow yt (rowVec bt)) p r
    (fun k => leakyRow_row y yt (rowVec bt) p r k (hy p r k h0)) s

end Cert.KernelIdeal.Hand

end
-- ==== Proof.Region0.lean ====
import proofs.«107355_j11166914969680_1_alg».proof.Proof.Gen.KernelIdeal.Frame
import proofs.«107355_j11166914969680_1_alg».proof.Proof.Spec
import proofs.«107355_j11166914969680_1_alg».proof.Proof.LibRowTile
import proofs.«107355_j11166914969680_1_alg».proof.Proof.RegionCommon
import Idealize.ShloMosaic.Lib.Pipeline.Value

/-!
# The first product, tile by tile, is the product of the whole arrays

The first region multiplies a tile of 5000 feature rows by the whole first weight matrix at each of its 20 grid points
and writes the tile of products back to the same rows of its result. A row of a product depends on that row of the
left operand alone, so the result array ends holding the product of the whole feature array with the weight matrix.
-/

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- What the body stores: the tile of feature rows times the weight matrix (the change of float format is the
    identity over the extended reals, and the matrix unit starts from a zero accumulator). -/
theorem pay0 (x0 : Vec Ideal S5000x256 .f32) (x1 : Vec Ideal S256x64 .f32) :
    Gen.k0_pay1 (F := Ideal) x0 x1 = Cert.Layers.rowsTimes x0 x1 := by
  unfold Gen.k0_pay1
  exact Cert.Layers.matmul_zero_eq _
    (by unfold dot_S5000x256_S256x64_S5000x64_1_0_0_1_n_n; exact ⟨rfl, rfl, rfl, rfl, rfl, rfl⟩) none _ _

/-- The block indices of the three windows at grid point `t`: the row windows sit at block `t`, the weight
    matrix is taken whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` holds rows `5000 t … 5000 t + 4999` of the feature array. -/
theorem rows0 (c : Dev nD) (t : Fin cfg0.N) (p : Fin 5000) (r : Fin 100000) (k : Fin 256)
    (h : r.val = 5000 * t.val + p.val) :
    (Gen.iblk0 V c 0 t : Vec Ideal S5000x256 .f32) (ix2 p k) = (V c main_arg0 : S100000x256.Idx → EReal) (ix2 r k) := by
  obtain ⟨e0, e1, -⟩ := idx0 t
  unfold Gen.iblk0
  rw [View.read_apply]
  show V c main_arg0 _ = V c main_arg0 _
  congr 1
  funext a
  apply Fin.ext
  match a with
  | ⟨0, _⟩ => show win0_0.index t 0 * 5000 + 1 * p.val = r.val; rw [e0, h]; omega
  | ⟨1, _⟩ => show win0_0.index t 1 * 256 + 1 * k.val = k.val; rw [e1]; omega

/-- The weight window's block at every point is the whole weight matrix. -/
theorem whole0 (c : Dev nD) (t : Fin cfg0.N) :
    (Gen.iblk0 V c 1 t : Vec Ideal S256x64 .f32) = (V c main_arg2 : S256x64.Idx → EReal) := by
  obtain ⟨-, -, e0, e1, -⟩ := idx0 t
  funext y
  unfold Gen.iblk0
  rw [View.read_apply]
  show V c main_arg2 _ = V c main_arg2 _
  congr 1
  funext a
  apply Fin.ext
  match a with
  | ⟨0, _⟩ => show win0_1.index t 0 * 256 + 1 * (y 0).val = (y 0).val; rw [e0]; omega
  | ⟨1, _⟩ => show win0_1.index t 1 * 64 + 1 * (y 1).val = (y 1).val; rw [e1]; omega

/-- What point `t` writes back is block `t` of the product of the whole arrays. -/
theorem flushed0 (c : Dev nD) (t : Fin cfg0.N) :
    (Gen.dat0 (F := Ideal) V c).flushed 2 t
      = ((cfg0.win 2).blk t).view.read (Elt Ideal)
          (Cert.Layers.rowsTimes (V c main_arg0 : S100000x256.Idx → EReal) (V c main_arg2 : S256x64.Idx → EReal)) := by
  show (cfg0.win 2).cut (grid0.coords t) ((Gen.dat0 V c).after 2 t) = _
  rw [Gen.after0_2]
  unfold Gen.out0_2
  rw [View.canon_unit_zero Cert.Layers.zeros2]
  simp only [View.ld_unit_zero (S := S5000x256) Cert.Layers.zeros2, View.ld_unit_zero (S := S256x64) Cert.Layers.zeros2]
  rw [pay0]
  obtain ⟨-, -, -, -, e0, e1⟩ := idx0 t
  funext j
  rw [View.read_apply]
  refine rowsTimes_tile (V c main_arg0 : S100000x256.Idx → EReal) (Gen.iblk0 V c 0 t : Vec Ideal S5000x256 .f32)
    (V c main_arg2 : S256x64.Idx → EReal) (Gen.iblk0 V c 1 t : Vec Ideal S256x64 .f32) (whole0 V c t) (5000 * t.val)
    (fun p r k h => rows0 V c t p r k h) j _ ?_ ?_
  · show win0_2.index t 0 * 5000 + 1 * (j 0).val = 5000 * t.val + (j 0).val; rw [e0]; omega
  · show win0_2.index t 1 * 64 + 1 * (j 1).val = (j 1).val; rw [e1]; omega

/-- An index of the result array lies in point `t`'s block iff each coordinate lies in the block's range. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v31).slice (win0_2.rect t)).set ↔ _
  rw [View.set_slice_whole, Rect.mem_set_unit]
  exact Iff.rfl

/-- Row `r` of the result lies in the block of point `r / 5000`, which is written back. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := Gen.N_0
  obtain ⟨t, ht⟩ : ∃ t : Fin cfg0.N, t.val = (i 0).val / 5000 := ⟨⟨(i 0).val / 5000, by show _ < grid0.N; omega⟩, rfl⟩
  obtain ⟨-, -, -, -, e0, e1⟩ := idx0 t
  refine ⟨t, Gen.flush0_2 t, ?_⟩
  rw [mem_blk0]
  intro a
  match a with
  | ⟨0, _⟩ =>
    show win0_2.index t 0 * 5000 ≤ (i 0).val ∧ (i 0).val < win0_2.index t 0 * 5000 + 5000
    rw [e0, ht]; omega
  | ⟨1, _⟩ =>
    show win0_2.index t 1 * 64 ≤ (i 1).val ∧ (i 1).val < win0_2.index t 1 * 64 + 64
    rw [e1]; omega

/-- The first region leaves in its result array the product of the feature array with the first weight matrix. -/
theorem arr0 (c : Dev nD) :
    (Gen.dat0 (F := Ideal) V c).arrAt 2 cfg0.N
      = Cert.Layers.rowsTimes (V c main_arg0 : S100000x256.Idx → EReal) (V c main_arg2 : S256x64.Idx → EReal) :=
  (Gen.dat0 (F := Ideal) V c).arrAt_eq_of_cover 2
    (Cert.Layers.rowsTimes (V c main_arg0 : S100000x256.Idx → EReal) (V c main_arg2 : S256x64.Idx → EReal))
    (fun t _ => flushed0 V c t) cover0

end Cert.KernelIdeal.Hand

end
-- ==== Proof.Region1.lean ====
import proofs.«107355_j11166914969680_1_alg».proof.Proof.Gen.KernelIdeal.Frame
import proofs.«107355_j11166914969680_1_alg».proof.Proof.Spec
import proofs.«107355_j11166914969680_1_alg».proof.Proof.LibRowTile
import proofs.«107355_j11166914969680_1_alg».proof.Proof.RegionCommon
import Idealize.ShloMosaic.Lib.Pipeline.Value

/-!
# The first bias-and-rectifier step, tile by tile, is that step on the whole array

The second region takes a tile of 5000 aggregated rows and the one-row bias array at each of its 20 grid points, adds
the bias row to every row of the tile, applies the leaky rectifier, and writes the tile back to the same rows of its
result. The step acts entry by entry, so the result array ends holding the step applied to the whole aggregated array.
-/

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- What the body stores: at entry `(p, q)` the sum `v` of the tile's entry and the bias row's entry `q`, kept where
    `v > 0` and multiplied by the slope elsewhere (the reshapes to the same shape are the identity). -/
theorem pay1 (x0 : Vec Ideal S5000x64 .f32) (x1 : Vec Ideal S1x64 .f32) :
    Gen.k1_pay1 (F := Ideal) x0 x1 = Cert.Gcn.leakyRow x0 (Cert.RowTile.rowVec x1) := by
  funext i
  obtain ⟨p, q, rfl⟩ : ∃ (p : Fin 5000) (q : Fin 64), i = ix2 p q := ⟨i 0, i 1, eq_ix2 i⟩
  unfold Gen.k1_pay1
  simp only [shapeCast_self]
  rw [select_apply, cmpf_apply, mulf_apply, addf_apply, broadcast_apply, broadcast_apply,
    broadcastTo_1b_ab_apply x1 _ p q]
  rfl

/-- The block indices of the three windows at grid point `t`: the row windows sit at block `t`, the bias row is
    taken whole. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row window's block at point `t` holds rows `5000 t … 5000 t + 4999` of the aggregated array. -/
theorem rows1 (c : Dev nD) (t : Fin cfg1.N) (p : Fin 5000) (r : Fin 100000) (k : Fin 64)
    (h : r.val = 5000 * t.val + p.val) :
    (Gen.iblk1 V c 0 t : Vec Ideal S5000x64 .f32) (ix2 p k) = (V c main_v44 : S100000x64.Idx → EReal) (ix2 r k) := by
  obtain ⟨e0, e1, -⟩ := idx1 t
  unfold Gen.iblk1
  rw [View.read_apply]
  show V c main_v44 _ = V c main_v44 _
  congr 1
  funext a
  apply Fin.ext
  match a with
  | ⟨0, _⟩ => show win1_0.index t 0 * 5000 + 1 * p.val = r.val; rw [e0, h]; omega
  | ⟨1, _⟩ => show win1_0.index t 1 * 64 + 1 * k.val = k.val; rw [e1]; omega

/-- The bias window's block at every point is the whole one-row bias array. -/
theorem whole1 (c : Dev nD) (t : Fin cfg1.N) :
    (Gen.iblk1 V c 1 t : Vec Ideal S1x64 .f32) = (V c main_v45 : S1x64.Idx → EReal) := by
  obtain ⟨-, -, e0, e1, -⟩ := idx1 t
  funext y
  unfold Gen.iblk1
  rw [View.read_apply]
  show V c main_v45 _ = V c main_v45 _
  congr 1
  funext a
  apply Fin.ext
  match a with
  | ⟨0, _⟩ => show win1_1.index t 0 * 1 + 1 * (y 0).val = (y 0).val; rw [e0]; omega
  | ⟨1, _⟩ => show win1_1.index t 1 * 64 + 1 * (y 1).val = (y 1).val; rw [e1]; omega

/-- What point `t` writes back is block `t` of the step applied to the whole aggregated array. -/
theorem flushed1 (c : Dev nD) (t : Fin cfg1.N) :
    (Gen.dat1 (F := Ideal) V c).flushed 2 t
      = ((cfg1.win 2).blk t).view.read (Elt Ideal)
          (Cert.Gcn.leakyRow (V c main_v44 : S100000x64.Idx → EReal)
            (Cert.RowTile.rowVec (V c main_v45 : S1x64.Idx → EReal))) := by
  show (cfg1.win 2).cut (grid1.coords t) ((Gen.dat1 V c).after 2 t) = _
  rw [Gen.after1_2]
  unfold Gen.out1_2
  rw [View.canon_unit_zero Cert.Layers.zeros2]
  simp only [View.ld_unit_zero (S := S5000x64) Cert.Layers.zeros2, View.ld_unit_zero (S := S1x64) Cert.Layers.zeros2]
  rw [pay1]
  obtain ⟨-, -, -, -, e0, e1⟩ := idx1 t
  funext j
  rw [View.read_apply]
  refine leakyRow_tile (V c main_v44 : S100000x64.Idx → EReal) (Gen.iblk1 V c 0 t : Vec Ideal S5000x64 .f32)
    (V c main_v45 : S1x64.Idx → EReal) (Gen.iblk1 V c 1 t : Vec Ideal S1x64 .f32) (whole1 V c t) (5000 * t.val)
    (fun p r k h => rows1 V c t p r k h) j _ ?_ ?_
  · show win1_2.index t 0 * 5000 + 1 * (j 0).val = 5000 * t.val + (j 0).val; rw [e0]; omega
  · show win1_2.index t 1 * 64 + 1 * (j 1).val = (j 1).val; rw [e1]; omega

/-- An index of the result array lies in point `t`'s block iff each coordinate lies in the block's range. -/
theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v46).slice (win1_2.rect t)).set ↔ _
  rw [View.set_slice_whole, Rect.mem_set_unit]
  exact Iff.rfl

/-- Row `r` of the result lies in the block of point `r / 5000`, which is written back. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 20 := Gen.N_1
  obtain ⟨t, ht⟩ : ∃ t : Fin cfg1.N, t.val = (i 0).val / 5000 := ⟨⟨(i 0).val / 5000, by show _ < grid1.N; omega⟩, rfl⟩
  obtain ⟨-, -, -, -, e0, e1⟩ := idx1 t
  refine ⟨t, Gen.flush1_2 t, ?_⟩
  rw [mem_blk1]
  intro a
  match a with
  | ⟨0, _⟩ =>
    show win1_2.index t 0 * 5000 ≤ (i 0).val ∧ (i 0).val < win1_2.index t 0 * 5000 + 5000
    rw [e0, ht]; omega
  | ⟨1, _⟩ =>
    show win1_2.index t 1 * 64 ≤ (i 1).val ∧ (i 1).val < win1_2.index t 1 * 64 + 64
    rw [e1]; omega

/-- The second region leaves in its result array the aggregated array plus the bias row, through the leaky rectifier. -/
theorem arr1 (c : Dev nD) :
    (Gen.dat1 (F := Ideal) V c).arrAt 2 cfg1.N
      = Cert.Gcn.leakyRow (V c main_v44 : S100000x64.Idx → EReal)
          (Cert.RowTile.rowVec (V c main_v45 : S1x64.Idx → EReal)) :=
  (Gen.dat1 (F := Ideal) V c).arrAt_eq_of_cover 2
    (Cert.Gcn.leakyRow (V c main_v44 : S100000x64.Idx → EReal) (Cert.RowTile.rowVec (V c main_v45 : S1x64.Idx → EReal)))
    (fun t _ => flushed1 V c t) cover1

end Cert.KernelIdeal.Hand

end
-- ==== Proof.Region2.lean ====
import proofs.«107355_j11166914969680_1_alg».proof.Proof.Gen.KernelIdeal.Frame
import proofs.«107355_j11166914969680_1_alg».proof.Proof.Spec
import proofs.«107355_j11166914969680_1_alg».proof.Proof.LibRowTile
import proofs.«107355_j11166914969680_1_alg».proof.Proof.RegionCommon
import Idealize.ShloMosaic.Lib.Pipeline.Value

/-!
# The second product, tile by tile, is the product of the whole arrays

The third region multiplies a tile of 5000 hidden rows by the whole second weight matrix at each of its 20 grid points
and writes the tile of products back to the same rows of its result. A row of a product depends on that row of the
left operand alone, so the result array ends holding the product of the whole hidden array with the weight matrix.
-/

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- What the body stores: the tile of hidden rows times the weight matrix (a reshape to the same shape and the change
    of float format are the identity over the extended reals, and the matrix unit starts from a zero accumulator). -/
theorem pay2 (x0 : Vec Ideal S5000x64 .f32) (x1 : Vec Ideal S64x32 .f32) :
    Gen.k2_pay1 (F := Ideal) x0 x1 = Cert.Layers.rowsTimes x0 x1 := by
  unfold Gen.k2_pay1
  rw [shapeCast_self]
  exact Cert.Layers.matmul_zero_eq _
    (by unfold dot_S5000x64_S64x32_S5000x32_1_0_0_1_n_n; exact ⟨rfl, rfl, rfl, rfl, rfl, rfl⟩) none _ _

/-- The block indices of the three windows at grid point `t`: the row windows sit at block `t`, the weight
    matrix is taken whole. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The hidden window's block at point `t` holds rows `5000 t … 5000 t + 4999` of the hidden array. -/
theorem rows2 (c : Dev nD) (t : Fin cfg2.N) (p : Fin 5000) (r : Fin 100000) (k : Fin 64)
    (h : r.val = 5000 * t.val + p.val) :
    (Gen.iblk2 V c 0 t : Vec Ideal S5000x64 .f32) (ix2 p k) = (V c main_v46 : S100000x64.Idx → EReal) (ix2 r k) := by
  obtain ⟨e0, e1, -⟩ := idx2 t
  unfold Gen.iblk2
  rw [View.read_apply]
  show V c main_v46 _ = V c main_v46 _
  congr 1
  funext a
  apply Fin.ext
  match a with
  | ⟨0, _⟩ => show win2_0.index t 0 * 5000 + 1 * p.val = r.val; rw [e0, h]; omega
  | ⟨1, _⟩ => show win2_0.index t 1 * 64 + 1 * k.val = k.val; rw [e1]; omega

/-- The weight window's block at every point is the whole weight matrix. -/
theorem whole2 (c : Dev nD) (t : Fin cfg2.N) :
    (Gen.iblk2 V c 1 t : Vec Ideal S64x32 .f32) = (V c main_arg4 : S64x32.Idx → EReal) := by
  obtain ⟨-, -, e0, e1, -⟩ := idx2 t
  funext y
  unfold Gen.iblk2
  rw [View.read_apply]
  show V c main_arg4 _ = V c main_arg4 _
  congr 1
  funext a
  apply Fin.ext
  match a with
  | ⟨0, _⟩ => show win2_1.index t 0 * 64 + 1 * (y 0).val = (y 0).val; rw [e0]; omega
  | ⟨1, _⟩ => show win2_1.index t 1 * 32 + 1 * (y 1).val = (y 1).val; rw [e1]; omega

/-- What point `t` writes back is block `t` of the product of the whole arrays. -/
theorem flushed2 (c : Dev nD) (t : Fin cfg2.N) :
    (Gen.dat2 (F := Ideal) V c).flushed 2 t
      = ((cfg2.win 2).blk t).view.read (Elt Ideal)
          (Cert.Layers.rowsTimes (V c main_v46 : S100000x64.Idx → EReal) (V c main_arg4 : S64x32.Idx → EReal)) := by
  show (cfg2.win 2).cut (grid2.coords t) ((Gen.dat2 V c).after 2 t) = _
  rw [Gen.after2_2]
  unfold Gen.out2_2
  rw [View.canon_unit_zero Cert.Layers.zeros2]
  simp only [View.ld_unit_zero (S := S5000x64) Cert.Layers.zeros2, View.ld_unit_zero (S := S64x32) Cert.Layers.zeros2]
  rw [pay2]
  obtain ⟨-, -, -, -, e0, e1⟩ := idx2 t
  funext j
  rw [View.read_apply]
  refine rowsTimes_tile (V c main_v46 : S100000x64.Idx → EReal) (Gen.iblk2 V c 0 t : Vec Ideal S5000x64 .f32)
    (V c main_arg4 : S64x32.Idx → EReal) (Gen.iblk2 V c 1 t : Vec Ideal S64x32 .f32) (whole2 V c t) (5000 * t.val)
    (fun p r k h => rows2 V c t p r k h) j _ ?_ ?_
  · show win2_2.index t 0 * 5000 + 1 * (j 0).val = 5000 * t.val + (j 0).val; rw [e0]; omega
  · show win2_2.index t 1 * 32 + 1 * (j 1).val = (j 1).val; rw [e1]; omega

/-- An index of the result array lies in point `t`'s block iff each coordinate lies in the block's range. -/
theorem mem_blk2 (t : Fin cfg2.N) (i : S100000x32.Idx) :
    i ∈ ((cfg2.win 2).blk t).view.set ↔ ∀ a : Fin 2, win2_2.index t a * S5000x32.size a ≤ (i a).val
      ∧ (i a).val < win2_2.index t a * S5000x32.size a + S5000x32.size a := by
  show i ∈ ((View.whole main_v47).slice (win2_2.rect t)).set ↔ _
  rw [View.set_slice_whole, Rect.mem_set_unit]
  exact Iff.rfl

/-- Row `r` of the result lies in the block of point `r / 5000`, which is written back. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : grid2.N = 20 := Gen.N_2
  obtain ⟨t, ht⟩ : ∃ t : Fin cfg2.N, t.val = (i 0).val / 5000 := ⟨⟨(i 0).val / 5000, by show _ < grid2.N; omega⟩, rfl⟩
  obtain ⟨-, -, -, -, e0, e1⟩ := idx2 t
  refine ⟨t, Gen.flush2_2 t, ?_⟩
  rw [mem_blk2]
  intro a
  match a with
  | ⟨0, _⟩ =>
    show win2_2.index t 0 * 5000 ≤ (i 0).val ∧ (i 0).val < win2_2.index t 0 * 5000 + 5000
    rw [e0, ht]; omega
  | ⟨1, _⟩ =>
    show win2_2.index t 1 * 32 ≤ (i 1).val ∧ (i 1).val < win2_2.index t 1 * 32 + 32
    rw [e1]; omega

/-- The third region leaves in its result array the product of the hidden array with the second weight matrix. -/
theorem arr2 (c : Dev nD) :
    (Gen.dat2 (F := Ideal) V c).arrAt 2 cfg2.N
      = Cert.Layers.rowsTimes (V c main_v46 : S100000x64.Idx → EReal) (V c main_arg4 : S64x32.Idx → EReal) :=
  (Gen.dat2 (F := Ideal) V c).arrAt_eq_of_cover 2
    (Cert.Layers.rowsTimes (V c main_v46 : S100000x64.Idx → EReal) (V c main_arg4 : S64x32.Idx → EReal))
    (fun t _ => flushed2 V c t) cover2

end Cert.KernelIdeal.Hand

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.LibFoldMin.lean ====
import Idealize.ShloMosaic.PureOps.Ideal.Laws

/-!
# Minima taken by folding, and the reals inside the extended reals

* A monotone map of a linear order goes through a minimum taken by folding `min` over a finite set from a start
  value: `g (fold min b f) = fold min (g b) (g ∘ f)`.  With `g = (· + c)` or `g = max · c` this moves an added
  constant or a clamp inside a row minimum.
* A float `minimumf` reduction over ONE axis, read at the ideal values, is the fold of `min` from the
  accumulator's value over that axis's coordinates (the companion of the library's statement for `maximumf`).
* The coercion of the reals into the extended reals goes through finite sums and through `max`.
-/

namespace Cert.LibFoldMin

open Idealize.ShloMosaic

/-- A monotone map of a linear order goes through a minimum taken by folding over a finite set. -/
theorem map_fold_min {α ι : Type*} [LinearOrder α] {g : α → α} (hg : Monotone g) (s : Finset ι) (b : α)
    (f : ι → α) : g (s.fold min b f) = s.fold min (g b) (fun i => g (f i)) := by
  classical
  induction s using Finset.induction_on with
  | empty => simp
  | insert a s ha ih => rw [Finset.fold_insert ha, Finset.fold_insert ha, hg.map_min, ih]

/-- A float `minimumf` reduction over one axis, at the ideal values: the fold of `min` from the accumulator's
    value over that axis's coordinates, the reduced index with the coordinate put back on the dropped axis. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The coercion of the reals goes through finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals goes through the maximum of two numbers. -/
theorem coe_max (a b : ℝ) : ((max a b : ℝ) : EReal) = max (a : EReal) (b : EReal) :=
  EReal.coe_strictMono.monotone.map_max

end Cert.LibFoldMin
-- ==== Proof.LibRowExtrema.lean ====
import Idealize.ShloMosaic.Lib.ValueIdx
import Idealize.ShloMosaic.PureOps.Ideal.Laws
import proofs.«107355_j11166914969680_1_alg».proof.Proof.LibFoldMin

/-!
# The largest and the smallest entry of each row, by their bounds

For an `[a, b]` array of extended reals, the maximum along axis 1 taken from a start value is, at row `p`, the
number whose upper bounds are exactly the upper bounds of the start value and of every entry `(p, q)`; the minimum is
the number whose lower bounds are the lower bounds of the start value and of every entry. Stated this way a row
maximum never has to be computed: two programs that reduce the same entries in different groupings are compared
through their bounds. Four readings: the vector unit's `multi_reduction` with a maximum or a minimum body, and the
host's one-operand reduce with the same bodies from a scalar start value.
-/

namespace Cert.LibRowExtrema

open Idealize.ShloMosaic Idealize.ShloMosaic.ValueIdx

variable {a b : ℕ} {φ : FTy}

/-- Row `p` with column `q` put back is the entry `(p, q)`. -/
theorem lift_row (h : (⟨2, ![a, b]⟩ : Shape).Reduces [1] ⟨1, ![a]⟩) (p : Fin a) (q : Fin b) :
    h.lift (ix1 p) q = ix2 p q := by
  funext c
  refine Fin.ext ?_
  match c with
  | ⟨0, _⟩ => rfl
  | ⟨1, _⟩ => rfl

/-- The vector unit's row maximum: its upper bounds are the start value's and every entry's. -/
theorem rowMax_le (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) (x : EReal) :
    multiReduction .maximumf [1] ⟨1, ![a]⟩ src acc h hφ hacc (ix1 p) ≤ x
      ↔ Ideal.ofBits φ acc ≤ x ∧ ∀ q : Fin b, src (ix2 p q) ≤ x := by
  rw [Ideal.multiReduction_maximumf_single src acc h hφ hacc (ix1 p), Finset.fold_max_le]
  refine and_congr Iff.rfl ⟨fun hq q => ?_, fun hq q _ => ?_⟩
  · rw [← lift_row h p q]; exact hq q (Finset.mem_univ _)
  · show src (h.lift (ix1 p) q) ≤ x
    rw [lift_row h p q]; exact hq q

/-- The vector unit's row minimum: its lower bounds are the start value's and every entry's. -/
theorem le_rowMin (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) (x : EReal) :
    x ≤ multiReduction .minimumf [1] ⟨1, ![a]⟩ src acc h hφ hacc (ix1 p)
      ↔ x ≤ Ideal.ofBits φ acc ∧ ∀ q : Fin b, x ≤ src (ix2 p q) := by
  rw [Cert.LibFoldMin.multiReduction_minimumf_single src acc h hφ hacc (ix1 p), Finset.le_fold_min]
  refine and_congr Iff.rfl ⟨fun hq q => ?_, fun hq q _ => ?_⟩
  · rw [← lift_row h p q]; exact hq q (Finset.mem_univ _)
  · show x ≤ src (h.lift (ix1 p) q)
    rw [lift_row h p q]; exact hq q

/-- The host's row maximum from a scalar start value. -/
theorem hostRowMax_le (src : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (x : EReal) :
    Host.reduce FloatOps.maximumf src init h' hu (ix1 p) ≤ x ↔ init ix0 ≤ x ∧ ∀ q : Fin b, src (ix2 p q) ≤ x := by
  rw [Host.reduce_eq_fold_single FloatOps.maximumf src init h' h hu (ix1 p), eq_ix0 (Shape.Idx.first hu)]
  show Finset.fold max (init ix0) (src ∘ h.lift (ix1 p)) Finset.univ ≤ x ↔ _
  rw [Finset.fold_max_le]
  refine and_congr Iff.rfl ⟨fun hq q => ?_, fun hq q _ => ?_⟩
  · rw [← lift_row h p q]; exact hq q (Finset.mem_univ _)
  · show src (h.lift (ix1 p) q) ≤ x
    rw [lift_row h p q]; exact hq q

/-- The host's row minimum from a scalar start value. -/
theorem le_hostRowMin (src : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (x : EReal) :
    x ≤ Host.reduce FloatOps.minimumf src init h' hu (ix1 p) ↔ x ≤ init ix0 ∧ ∀ q : Fin b, x ≤ src (ix2 p q) := by
  rw [Host.reduce_eq_fold_single FloatOps.minimumf src init h' h hu (ix1 p), eq_ix0 (Shape.Idx.first hu)]
  show x ≤ Finset.fold min (init ix0) (src ∘ h.lift (ix1 p)) Finset.univ ↔ _
  rw [Finset.le_fold_min]
  refine and_congr Iff.rfl ⟨fun hq q => ?_, fun hq q _ => ?_⟩
  · rw [← lift_row h p q]; exact hq q (Finset.mem_univ _)
  · show x ≤ src (h.lift (ix1 p) q)
    rw [lift_row h p q]; exact hq q

end Cert.LibRowExtrema
-- ==== Proof.Pay3.lean ====
import Idealize.ShloMosaic.Lib.ValueIdx
import Idealize.ShloMosaic.Lib.ValueLayout
import Idealize.ShloMosaic.Lib.Pipeline.Value
import Idealize.ShloMosaic.PureOps.Ideal.Laws
import proofs.«107355_j11166914969680_1_alg».proof.Proof.Gen.KernelIdeal.Skeleton
import proofs.«107355_j11166914969680_1_alg».proof.Proof.Spec
import proofs.«107355_j11166914969680_1_alg».proof.Proof.LibRowTile
import proofs.«107355_j11166914969680_1_alg».proof.Proof.LibTileLayout
import proofs.«107355_j11166914969680_1_alg».proof.Proof.LibRowExtrema

/-!
# The last stage on one tile of rows: bias, leaky rectifier, row-wise log-softmax

On a tile of `T` rows and `N` columns the vector unit adds the one-row bias array to every row, selects between `v`
and `slope · v` on the test `v > 0`, takes each row's maximum from minus infinity, stands it up as a column and spreads
it back over the columns, subtracts, exponentiates, sums each row from zero, takes the logarithm of that column and
subtracts it too. Over the extended reals, read entry by entry, this is `lsmRows (leakyRow x (rowVec b))`: the first
half is the rectifier by its definition, a row maximum is the fold of `max` over the row, a row sum is the finite sum
over the row. Proved for any `T` and `N`, then read at the tile of 5000 rows by 32 columns.
-/

noncomputable section

namespace Cert.KernelIdeal.Hand

open Idealize.ShloMosaic Idealize.ShloMosaic.ValueIdx Cert.Gcn
open scoped BigOperators

variable {T N : Nat}

/-- Bias row added to every row of the tile, then the rectifier written with the strict test: `leakyRow`. -/
theorem tile_leaky (x : FVec Ideal ⟨2, ![T, N]⟩ .f32) (b : FVec Ideal ⟨2, ![1, N]⟩ .f32)
    (hb : (⟨2, ![1, N]⟩ : Shape).Broadcasts ⟨2, ![T, N]⟩) :
    select (cmpf .ogt (addf x (broadcastTo ⟨2, ![T, N]⟩ b hb))
              (broadcast ⟨2, ![T, N]⟩ (Scalar.ofBits (F := Ideal) .f32 0x00000000#32)))
        (addf x (broadcastTo ⟨2, ![T, N]⟩ b hb))
        (mulf (broadcast ⟨2, ![T, N]⟩ (Scalar.ofBits (F := Ideal) .f32 0x3C23D70A#32)) (addf x (broadcastTo ⟨2, ![T, N]⟩ b hb)))
      = leakyRow x (Cert.RowTile.rowVec b) := by
  funext i
  obtain ⟨p, q, rfl⟩ : ∃ (p : Fin T) (q : Fin N), i = ix2 p q := ⟨i 0, i 1, eq_ix2 i⟩
  rw [select_apply, cmpf_apply, mulf_apply, addf_apply, broadcast_apply, broadcast_apply,
    broadcastTo_1b_ab_apply b hb p q, leakyRow_apply, Cert.RowTile.rowVec_apply]
  rfl

/-- The vector unit's row maximum from minus infinity is `rowMax`. -/
theorem tile_rowMax (y : FVec Ideal ⟨2, ![T, N]⟩ .f32)
    (hr : (⟨2, ![T, N]⟩ : Shape).Reduces [1] ⟨1, ![T]⟩) (hφ : FKind.Formats .f32)
    (hmax : (0xFF800000#32 : BitVec 32) = FKind.maximumf.neutral .f32 hφ) (p : Fin T) :
    multiReduction .maximumf [1] ⟨1, ![T]⟩ y 0xFF800000#32 hr hφ hmax (ix1 p) = rowMax y p := by
  refine (Ideal.multiReduction_maximumf_single y _ hr hφ hmax (ix1 p)).trans ?_
  show (Finset.univ : Finset (Fin N)).fold max negInfW (y ∘ hr.lift (ix1 p)) = rowMax y p
  unfold rowMax
  exact congrArg (fun f => (Finset.univ : Finset (Fin N)).fold max negInfW f)
    (funext fun q => congrArg y (Cert.LibRowExtrema.lift_row hr p q))

/-- From an array `sh` that already holds each entry minus its row's maximum: subtracting, from every entry, the
    logarithm of its row's sum of exponentials gives `lsmRows`. -/
theorem tile_lsm_tail (y sh : FVec Ideal ⟨2, ![T, N]⟩ .f32)
    (hsh : ∀ (p : Fin T) (q : Fin N), sh (ix2 p q) = y (ix2 p q) - rowMax y p)
    (hr : (⟨2, ![T, N]⟩ : Shape).Reduces [1] ⟨1, ![T]⟩) (hφ : FKind.Formats .f32)
    (hadd : (0x00000000#32 : BitVec 32) = FKind.add.neutral .f32 hφ)
    (hc : (⟨1, ![T]⟩ : Shape).ShapeCasts ⟨2, ![T, 1]⟩) (hbc : (⟨2, ![T, 1]⟩ : Shape).Broadcasts ⟨2, ![T, N]⟩) :
    subf sh (broadcastTo ⟨2, ![T, N]⟩
        (log (shapeCast ⟨2, ![T, 1]⟩ (multiReduction .add [1] ⟨1, ![T]⟩ (exp sh) 0x00000000#32 hr hφ hadd) hc)) hbc)
      = lsmRows y := by
  funext i
  obtain ⟨p, q, rfl⟩ : ∃ (p : Fin T) (q : Fin N), i = ix2 p q := ⟨i 0, i 1, eq_ix2 i⟩
  rw [subf_apply, Cert.TileLayout.broadcastTo_a1_ab_apply _ hbc p q, hsh p q, lsmRows_apply]
  show _ - Ideal.log (shapeCast ⟨2, ![T, 1]⟩ (multiReduction .add [1] ⟨1, ![T]⟩ (exp sh) 0x00000000#32 hr hφ hadd) hc
      (ix2 p (0 : Fin 1))) = _
  rw [Cert.TileLayout.shapeCast_a_a1_apply _ hc p (0 : Fin 1), Cert.TileLayout.sum_axis1_apply (exp sh) _ hr hφ hadd p]
  refine congrArg (fun s => (y (ix2 p q) - rowMax y p) - Ideal.log s) (Finset.sum_congr rfl fun k _ => ?_)
  show Ideal.exp (sh (ix2 p k)) = _
  rw [hsh p k]

/-- The log-softmax half on a tile: `lsmRows`. -/
theorem tile_lsm (y : FVec Ideal ⟨2, ![T, N]⟩ .f32)
    (hr : (⟨2, ![T, N]⟩ : Shape).Reduces [1] ⟨1, ![T]⟩) (hφ : FKind.Formats .f32)
    (hmax : (0xFF800000#32 : BitVec 32) = FKind.maximumf.neutral .f32 hφ)
    (hadd : (0x00000000#32 : BitVec 32) = FKind.add.neutral .f32 hφ)
    (hc : (⟨1, ![T]⟩ : Shape).ShapeCasts ⟨2, ![T, 1]⟩) (hbc : (⟨2, ![T, 1]⟩ : Shape).Broadcasts ⟨2, ![T, N]⟩) :
    subf (subf y (broadcastTo ⟨2, ![T, N]⟩
            (shapeCast ⟨2, ![T, 1]⟩ (multiReduction .maximumf [1] ⟨1, ![T]⟩ y 0xFF800000#32 hr hφ hmax) hc) hbc))
        (broadcastTo ⟨2, ![T, N]⟩
          (log (shapeCast ⟨2, ![T, 1]⟩
            (multiReduction .add [1] ⟨1, ![T]⟩
              (exp (subf y (broadcastTo ⟨2, ![T, N]⟩
                (shapeCast ⟨2, ![T, 1]⟩ (multiReduction .maximumf [1] ⟨1, ![T]⟩ y 0xFF800000#32 hr hφ hmax) hc) hbc)))
              0x00000000#32 hr hφ hadd) hc)) hbc)
      = lsmRows y :=
  tile_lsm_tail y _ (fun p q => by
    rw [subf_apply, Cert.TileLayout.broadcastTo_a1_ab_apply _ hbc p q,
      Cert.TileLayout.shapeCast_a_a1_apply _ hc p (0 : Fin 1), tile_rowMax y hr hφ hmax p]) hr hφ hadd hc hbc

/-- The whole stage on a tile of any extents, the two re-layings of each operand to its own shape included. -/
theorem tile_pay (x0 : FVec Ideal ⟨2, ![T, N]⟩ .f32) (x1 : FVec Ideal ⟨2, ![1, N]⟩ .f32)
    (hs0 : (⟨2, ![T, N]⟩ : Shape).ShapeCasts ⟨2, ![T, N]⟩) (hs1 : (⟨2, ![1, N]⟩ : Shape).ShapeCasts ⟨2, ![1, N]⟩)
    (hb : (⟨2, ![1, N]⟩ : Shape).Broadcasts ⟨2, ![T, N]⟩)
    (hr : (⟨2, ![T, N]⟩ : Shape).Reduces [1] ⟨1, ![T]⟩) (hφ : FKind.Formats .f32)
    (hmax : (0xFF800000#32 : BitVec 32) = FKind.maximumf.neutral .f32 hφ)
    (hadd : (0x00000000#32 : BitVec 32) = FKind.add.neutral .f32 hφ)
    (hc : (⟨1, ![T]⟩ : Shape).ShapeCasts ⟨2, ![T, 1]⟩) (hbc : (⟨2, ![T, 1]⟩ : Shape).Broadcasts ⟨2, ![T, N]⟩)
    (A : FVec Ideal ⟨2, ![T, N]⟩ .f32)
    (hA : A = select (cmpf .ogt (addf (shapeCast ⟨2, ![T, N]⟩ x0 hs0)
                  (broadcastTo ⟨2, ![T, N]⟩ (shapeCast ⟨2, ![1, N]⟩ (shapeCast ⟨2, ![1, N]⟩ x1 hs1) hs1) hb))
              (broadcast ⟨2, ![T, N]⟩ (Scalar.ofBits (F := Ideal) .f32 0x00000000#32)))
        (addf (shapeCast ⟨2, ![T, N]⟩ x0 hs0)
          (broadcastTo ⟨2, ![T, N]⟩ (shapeCast ⟨2, ![1, N]⟩ (shapeCast ⟨2, ![1, N]⟩ x1 hs1) hs1) hb))
        (mulf (broadcast ⟨2, ![T, N]⟩ (Scalar.ofBits (F := Ideal) .f32 0x3C23D70A#32))
          (addf (shapeCast ⟨2, ![T, N]⟩ x0 hs0)
            (broadcastTo ⟨2, ![T, N]⟩ (shapeCast ⟨2, ![1, N]⟩ (shapeCast ⟨2, ![1, N]⟩ x1 hs1) hs1) hb)))) :
    subf (subf A (broadcastTo ⟨2, ![T, N]⟩
            (shapeCast ⟨2, ![T, 1]⟩ (multiReduction .maximumf [1] ⟨1, ![T]⟩ A 0xFF800000#32 hr hφ hmax) hc) hbc))
        (broadcastTo ⟨2, ![T, N]⟩
          (log (shapeCast ⟨2, ![T, 1]⟩
            (multiReduction .add [1] ⟨1, ![T]⟩
              (exp (subf A (broadcastTo ⟨2, ![T, N]⟩
                (shapeCast ⟨2, ![T, 1]⟩ (multiReduction .maximumf [1] ⟨1, ![T]⟩ A 0xFF800000#32 hr hφ hmax) hc) hbc)))
              0x00000000#32 hr hφ hadd) hc)) hbc)
      = lsmRows (leakyRow x0 (Cert.RowTile.rowVec x1)) := by
  have hA' : A = leakyRow x0 (Cert.RowTile.rowVec x1) := by
    rw [hA, shapeCast_self, shapeCast_self, shapeCast_self]
    exact tile_leaky x0 x1 hb
  rw [tile_lsm A hr hφ hmax hadd hc hbc, hA']

/-- The stage's payload on the tile of 5000 rows by 32 columns. -/
theorem pay3 (x0 : Vec Ideal S5000x32 .f32) (x1 : Vec Ideal S1x32 .f32) :
    Gen.k3_pay1 (F := Ideal) x0 x1 = lsmRows (leakyRow x0 (Cert.RowTile.rowVec x1)) :=
  tile_pay (T := 5000) (N := 32) x0 x1 Gen.shapeCasts_S5000x32_S5000x32 Gen.shapeCasts_S1x32_S1x32
    Gen.broadcasts_S1x32_S5000x32 Gen.reduces_S5000x32_S5000 (.inl rfl) rfl rfl Gen.shapeCasts_S5000_S5000x1
    Gen.broadcasts_S5000x1_S5000x32 _ rfl

end Cert.KernelIdeal.Hand

end
-- ==== Proof.Region3.lean ====
import proofs.«107355_j11166914969680_1_alg».proof.Proof.Gen.KernelIdeal.Frame
import proofs.«107355_j11166914969680_1_alg».proof.Proof.Spec
import proofs.«107355_j11166914969680_1_alg».proof.Proof.LibRowTile
import proofs.«107355_j11166914969680_1_alg».proof.Proof.RegionCommon
import proofs.«107355_j11166914969680_1_alg».proof.Proof.Pay3
import Idealize.ShloMosaic.Lib.Pipeline.Value

/-!
# The last step, tile by tile, is that step on the whole array

The fourth region takes a tile of 5000 aggregated rows and the one-row bias array at each of its 20 grid points, adds
the bias row to every row of the tile, applies the leaky rectifier, takes the log-softmax of every row, and writes the
tile back to the same rows of its result. The bias and the rectifier act entry by entry and the log-softmax row by row,
so the result array ends holding these steps applied to the whole aggregated array.
-/

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The block indices of the three windows at grid point `t`: the row windows sit at block `t`, the bias row is
    taken whole. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row window's block at point `t` holds rows `5000 t … 5000 t + 4999` of the aggregated array. -/
theorem rows3 (c : Dev nD) (t : Fin cfg3.N) (p : Fin 5000) (r : Fin 100000) (k : Fin 32)
    (h : r.val = 5000 * t.val + p.val) :
    (Gen.iblk3 V c 0 t : Vec Ideal S5000x32 .f32) (ix2 p k) = (V c main_v60 : S100000x32.Idx → EReal) (ix2 r k) := by
  obtain ⟨e0, e1, -⟩ := idx3 t
  unfold Gen.iblk3
  rw [View.read_apply]
  show V c main_v60 _ = V c main_v60 _
  congr 1
  funext a
  apply Fin.ext
  match a with
  | ⟨0, _⟩ => show win3_0.index t 0 * 5000 + 1 * p.val = r.val; rw [e0, h]; omega
  | ⟨1, _⟩ => show win3_0.index t 1 * 32 + 1 * k.val = k.val; rw [e1]; omega

/-- The bias window's block at every point is the whole one-row bias array. -/
theorem whole3 (c : Dev nD) (t : Fin cfg3.N) :
    (Gen.iblk3 V c 1 t : Vec Ideal S1x32 .f32) = (V c main_v61 : S1x32.Idx → EReal) := by
  obtain ⟨-, -, e0, e1, -⟩ := idx3 t
  funext y
  unfold Gen.iblk3
  rw [View.read_apply]
  show V c main_v61 _ = V c main_v61 _
  congr 1
  funext a
  apply Fin.ext
  match a with
  | ⟨0, _⟩ => show win3_1.index t 0 * 1 + 1 * (y 0).val = (y 0).val; rw [e0]; omega
  | ⟨1, _⟩ => show win3_1.index t 1 * 32 + 1 * (y 1).val = (y 1).val; rw [e1]; omega

/-- What point `t` writes back is block `t` of the steps applied to the whole aggregated array. -/
theorem flushed3 (c : Dev nD) (t : Fin cfg3.N) :
    (Gen.dat3 (F := Ideal) V c).flushed 2 t
      = ((cfg3.win 2).blk t).view.read (Elt Ideal)
          (Cert.Gcn.lsmRows (Cert.Gcn.leakyRow (V c main_v60 : S100000x32.Idx → EReal)
            (Cert.RowTile.rowVec (V c main_v61 : S1x32.Idx → EReal)))) := by
  show (cfg3.win 2).cut (grid3.coords t) ((Gen.dat3 V c).after 2 t) = _
  rw [Gen.after3_2]
  unfold Gen.out3_2
  rw [View.canon_unit_zero Cert.Layers.zeros2]
  simp only [View.ld_unit_zero (S := S5000x32) Cert.Layers.zeros2, View.ld_unit_zero (S := S1x32) Cert.Layers.zeros2]
  rw [pay3]
  obtain ⟨-, -, -, -, e0, e1⟩ := idx3 t
  funext j
  rw [View.read_apply]
  refine lsm_leakyRow_tile (V c main_v60 : S100000x32.Idx → EReal) (Gen.iblk3 V c 0 t : Vec Ideal S5000x32 .f32)
    (V c main_v61 : S1x32.Idx → EReal) (Gen.iblk3 V c 1 t : Vec Ideal S1x32 .f32) (whole3 V c t) (5000 * t.val)
    (fun p r k h => rows3 V c t p r k h) j _ ?_ ?_
  · show win3_2.index t 0 * 5000 + 1 * (j 0).val = 5000 * t.val + (j 0).val; rw [e0]; omega
  · show win3_2.index t 1 * 32 + 1 * (j 1).val = (j 1).val; rw [e1]; omega

/-- An index of the result array lies in point `t`'s block iff each coordinate lies in the block's range. -/
theorem mem_blk3 (t : Fin cfg3.N) (i : S100000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v62).slice (win3_2.rect t)).set ↔ _
  rw [View.set_slice_whole, Rect.mem_set_unit]
  exact Iff.rfl

/-- Row `r` of the result lies in the block of point `r / 5000`, which is written back. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : grid3.N = 20 := Gen.N_3
  obtain ⟨t, ht⟩ : ∃ t : Fin cfg3.N, t.val = (i 0).val / 5000 := ⟨⟨(i 0).val / 5000, by show _ < grid3.N; omega⟩, rfl⟩
  obtain ⟨-, -, -, -, e0, e1⟩ := idx3 t
  refine ⟨t, Gen.flush3_2 t, ?_⟩
  rw [mem_blk3]
  intro a
  match a with
  | ⟨0, _⟩ =>
    show win3_2.index t 0 * 5000 ≤ (i 0).val ∧ (i 0).val < win3_2.index t 0 * 5000 + 5000
    rw [e0, ht]; omega
  | ⟨1, _⟩ =>
    show win3_2.index t 1 * 32 ≤ (i 1).val ∧ (i 1).val < win3_2.index t 1 * 32 + 32
    rw [e1]; omega

/-- The fourth region leaves in its result array the row-wise log-softmax of the aggregated array plus the bias row
    through the leaky rectifier. -/
theorem arr3 (c : Dev nD) :
    (Gen.dat3 (F := Ideal) V c).arrAt 2 cfg3.N
      = Cert.Gcn.lsmRows (Cert.Gcn.leakyRow (V c main_v60 : S100000x32.Idx → EReal)
          (Cert.RowTile.rowVec (V c main_v61 : S1x32.Idx → EReal))) :=
  (Gen.dat3 (F := Ideal) V c).arrAt_eq_of_cover 2
    (Cert.Gcn.lsmRows (Cert.Gcn.leakyRow (V c main_v60 : S100000x32.Idx → EReal)
      (Cert.RowTile.rowVec (V c main_v61 : S1x32.Idx → EReal))))
    (fun t _ => flushed3 V c t) cover3

end Cert.KernelIdeal.Hand

end
-- ==== Proof.KerValue.lean ====
import proofs.«107355_j11166914969680_1_alg».proof.Proof.Gen.KernelIdeal.Frame
import proofs.«107355_j11166914969680_1_alg».proof.Proof.KerHost
import proofs.«107355_j11166914969680_1_alg».proof.Proof.KerHost2
import proofs.«107355_j11166914969680_1_alg».proof.Proof.KerRun
import proofs.«107355_j11166914969680_1_alg».proof.Proof.Region0
import proofs.«107355_j11166914969680_1_alg».proof.Proof.Region1
import proofs.«107355_j11166914969680_1_alg».proof.Proof.Region2
import proofs.«107355_j11166914969680_1_alg».proof.Proof.Region3
import proofs.«107355_j11166914969680_1_alg».proof.Proof.Spec
import proofs.«107355_j11166914969680_1_alg».proof.Proof.LibRowTile

/-!
# What the kernel program computes

Region by region, from the launch memory: region 0 leaves the node features times the first weight matrix; the host
aggregates it along the edges; region 1 adds the first bias and applies the leaky rectifier; region 2 multiplies by the
second weight matrix; the host aggregates again; region 3 adds the second bias, applies the rectifier and takes the
log-softmax of every row. Together: the network `Cert.Gcn.gcn` of the six arguments, with the host's two aggregations.
-/

noncomputable section

namespace Cert.KernelIdeal.Hand

open Idealize.ShloMosaic Idealize.ShloMosaic.TcCoe Idealize.SL.Sem
open Cert.KernelIdeal Cert.KernelIdeal.Gen Cert.Layers Cert.Gcn Cert.RowTile

variable (m : (ℓ : Loc nD τ sig) → Buf (Elt Ideal) ℓ) (ρ : Dev nD → PrngReg) (c : Dev nD)

/-- The arguments as launched. -/
abbrev argX : S100000x256.Idx → EReal := m ((c : Thread nD τ).loc main_arg0)
abbrev argW1 : S256x64.Idx → EReal := m ((c : Thread nD τ).loc main_arg2)
abbrev argB1 : S64.Idx → EReal := m ((c : Thread nD τ).loc main_arg3)
abbrev argW2 : S64x32.Idx → EReal := m ((c : Thread nD τ).loc main_arg4)
abbrev argB2 : S32.Idx → EReal := m ((c : Thread nD τ).loc main_arg5)

/-- Region 0 leaves the features times the first weights. -/
theorem W4_v31 : W4 m ρ c (Proc.devRef .tc main_v31) = rowsTimes (argX m c) (argW1 m c) := by
  refine (W4_arr m ρ c 2).trans ((arr0 (V3 m ρ) c).trans ?_)
  show rowsTimes (W3 m ρ c (Proc.devRef .tc main_arg0) : S100000x256.Idx → EReal) (W3 m ρ c (Proc.devRef .tc main_arg2) : S256x64.Idx → EReal) = _
  rw [W3_arg0 m ρ c, W3_arg2 m ρ c]

/-- Region 1 leaves the first layer's output. -/
theorem W6_v46 : W6 m ρ c (Proc.devRef .tc main_v46)
    = leakyRow (agg64 (edges m c) (rowsTimes (argX m c) (argW1 m c))) (argB1 m c) := by
  refine (W6_arr m ρ c 2).trans ((arr1 (V5 m ρ) c).trans ?_)
  show leakyRow (W5 m ρ c (Proc.devRef .tc main_v44) : S100000x64.Idx → EReal)
      (rowVec (W5 m ρ c (Proc.devRef .tc main_v45) : S1x64.Idx → EReal)) = _
  rw [W5_v44 m ρ c, W5_v45 m ρ c, W4_v31 m ρ c, rowVec_shapeCast]

/-- Region 2 leaves it times the second weights. -/
theorem W7_v47 : W7 m ρ c (Proc.devRef .tc main_v47)
    = rowsTimes (leakyRow (agg64 (edges m c) (rowsTimes (argX m c) (argW1 m c))) (argB1 m c)) (argW2 m c) := by
  refine (W7_arr m ρ c 2).trans ((arr2 (V6 m ρ) c).trans ?_)
  show rowsTimes (W6 m ρ c (Proc.devRef .tc main_v46) : S100000x64.Idx → EReal) (W6 m ρ c (Proc.devRef .tc main_arg4) : S64x32.Idx → EReal) = _
  rw [W6_v46 m ρ c, W6_arg4 m ρ c]

/-- Region 3 leaves the network's output. -/
theorem W9_v62 : W9 m ρ c (Proc.devRef .tc main_v62)
    = gcn (agg64 (edges m c)) (agg32 (edges m c)) (argX m c) (argW1 m c) (argB1 m c) (argW2 m c) (argB2 m c) := by
  refine (W9_arr m ρ c 2).trans ((arr3 (V8 m ρ) c).trans ?_)
  show lsmRows (leakyRow (W8 m ρ c (Proc.devRef .tc main_v60) : S100000x32.Idx → EReal)
      (rowVec (W8 m ρ c (Proc.devRef .tc main_v61) : S1x32.Idx → EReal))) = _
  rw [W8_v60 m ρ c, W8_v61 m ρ c, W7_v47 m ρ c, rowVec_shapeCast]
  rfl

/-- The kernel program's run: it terminates without a fault, its result array ends at the network's output, and its
    argument arrays end as launched. -/
theorem run : θ_run (defs (F := Ideal)) (onTc (τ := τ) (main (F := Ideal))) ⟨m, fun _ => 0, ρ⟩ (fun r => ∀ c : Dev nD,
      r.2.mem ((c.tc : Thread nD τ).loc main_v62)
        = gcn (agg64 (edges m c)) (agg32 (edges m c)) (argX m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W9_v62 m ρ c), (h c).2⟩) (run_out m ρ)

end Cert.KernelIdeal.Hand

end
-- ==== Proof.RefOps.lean ====
import proofs.«107355_j11166914969680_1_alg».proof.ReferenceIdeal
import Idealize.ShloMosaic.Lib.StableHlo.Run

/-!
# The reference program as one straight line of operations

The reference's @main is host-only: a sequence of tensor operations, five of them calls of small local functions
(two selects, two leaky rectifiers with a nested select each, and a row-wise log-softmax). A call means the
callee's body run on the call's own buffers, so substituting each body at its call site gives one list of
operations. It is written here in eight consecutive pieces, the first three making up the first window of the
printed @main and the other five the second. The run of such a list is known in closed form: every buffer ends
holding the fold of the operations over the launch contents.
-/

set_option synthInstance.maxSize 4096

noncomputable section

namespace Cert.ReferenceIdeal.Hand

open Idealize.ShloMosaic Idealize.ShloMosaic.TcCoe Idealize.ShloMosaic.StableHlo Idealize.SL.Sem

variable {F : FTy → Type} [FloatOps F]
variable [Facts]
open Facts₀ Facts

/-- The two rows of the edge array as vectors, the node numbers, and each row followed by the node numbers: the
    source and target of every edge, then of one self-loop per node. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The first layer's degree count (ones added up at the targets), its inverse square root, and the select (a call)
    that keeps it where the degree is positive. -/
abbrev opsB1 : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    TRef.ternary (.of main_v12 : TRef sig ⟨S100000, .i1⟩) (.of main_v13 : TRef sig ⟨S100000, .f32⟩) (.of main_v14 : TRef sig ⟨S100000, .f32⟩) main_call0.v0 select ]

/-- The first layer's per-entry weights (two gathers and a product), the product of features and weights, its gather
    along the sources, scaling, scatter-add at the targets, the bias row added; then the rectifier's slope. -/
abbrev opsB2 : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v5 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v5 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    binary main_arg0 main_arg2 main_v31 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v5 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v5 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v5 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v39 (broadcastInDim S1700000x1 ![0] bcast_S1700000_S1700000x1_0 : (⟨S1700000, .f32⟩ : BufTy).Contents (Elt F) → (⟨S1700000x1, .f32⟩ : BufTy).Contents (Elt F)),
    unary main_v39 main_v40 (broadcastInDim S1700000x64 ![0, 1] bcast_S1700000x1_S1700000x64_0_1 : (⟨S1700000x1, .f32⟩ : BufTy).Contents (Elt F) → (⟨S1700000x64, .f32⟩ : BufTy).Contents (Elt F)),
    binary main_v38 main_v40 main_v41 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v42 (broadcastInDim S100000x64 ![] bcast_S_S100000x64 : (⟨S_, .f32⟩ : BufTy).Contents (Elt F) → (⟨S100000x64, .f32⟩ : BufTy).Contents (Elt F)),
    unary main_v6 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x3C23D70A#32) ]

/-- The first rectifier (a call: seven operations with its nested select), then the node numbers and the two index
    arrays again, in fresh buffers. -/
abbrev opsC : List (HloOp τ sig (Elt F)) :=
  [ TRef.nullary main_call1.cst (constant S_ .f32 0x00000000#32),
    TRef.unary main_call1.cst main_call1.v0 (broadcastInDim S100000x64 ![] bcast_S_S100000x64),
    TRef.binary (.of main_v47 : TRef sig ⟨S100000x64, .f32⟩) main_call1.v0 main_call1.v1 (cmpf .oge),
    TRef.unary (.of main_cst_9 : TRef sig ⟨S_, .f32⟩) main_call1.v2 id,
    TRef.unary main_call1.v2 main_call1.v3 (broadcastInDim S100000x64 ![] bcast_S_S100000x64),
    TRef.binary main_call1.v3 (.of main_v47 : TRef sig ⟨S100000x64, .f32⟩) main_call1.v4 mulf,
    TRef.ternary main_call1.v1 (.of main_v47 : TRef sig ⟨S100000x64, .f32⟩) main_call1.v4 main_call1.call0.v0 select,
    nullary main_v49 (iotaInDim S100000 32 0),
    binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The second layer's degree count, inverse square root and select, on the fresh index arrays. -/
abbrev opsD1 : List (HloOp τ sig (Elt F)) :=
  [ nullary main_cst_10 (constant S_ .f32 0x3F800000#32),
    unary main_cst_10 main_v52 (broadcastInDim S1700000 ![] bcast_S_S1700000 : (⟨S_, .f32⟩ : BufTy).Contents (Elt F) → (⟨S1700000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    unary main_v51 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_12 (constant S_ .f32 0x00000000#32),
    unary main_cst_12 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_13 (constant S_ .f32 0x00000000#32),
    unary main_cst_13 main_v59 (broadcastInDim S100000 ![] bcast_S_S100000 : (⟨S_, .f32⟩ : BufTy).Contents (Elt F) → (⟨S100000, .f32⟩ : BufTy).Contents (Elt F)),
    TRef.ternary (.of main_v57 : TRef sig ⟨S100000, .i1⟩) (.of main_v58 : TRef sig ⟨S100000, .f32⟩) (.of main_v59 : TRef sig ⟨S100000, .f32⟩) main_call2.v0 select ]

/-- The second layer's weights, product, gather, scaling, scatter-add and bias; then the slope again. -/
abbrev opsD2 : List (HloOp τ sig (Elt F)) :=
  [ nullary main_c_14 (constantI S_ 32 0#32),
    unary main_c_14 main_v61 (broadcastInDim S1700000 ![] bcast_S_S1700000 : (⟨S_, .i32⟩ : BufTy).Contents (Elt F) → (⟨S1700000, .i32⟩ : BufTy).Contents (Elt F)),
    binary main_v50 main_v61 main_v62 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v63 (broadcastInDim S1700000 ![] bcast_S_S1700000 : (⟨S_, .i32⟩ : BufTy).Contents (Elt F) → (⟨S1700000, .i32⟩ : BufTy).Contents (Elt F)),
    binary main_v50 main_v63 main_v64 (addi : (⟨S1700000, .i32⟩ : BufTy).Contents (Elt F) → (⟨S1700000, .i32⟩ : BufTy).Contents (Elt F) → (⟨S1700000, .i32⟩ : BufTy).Contents (Elt F)),
    ternary main_v62 main_v64 main_v50 main_v65 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v65 main_v66 (broadcastInDim S1700000x1 ![0] bcast_S1700000_S1700000x1_0 : (⟨S1700000, .i32⟩ : BufTy).Contents (Elt F) → (⟨S1700000x1, .i32⟩ : BufTy).Contents (Elt F)),
    binary main_v60 main_v66 main_v67 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_16 (constantI S_ 32 0#32),
    unary main_c_16 main_v68 (broadcastInDim S1700000 ![] bcast_S_S1700000 : (⟨S_, .i32⟩ : BufTy).Contents (Elt F) → (⟨S1700000, .i32⟩ : BufTy).Contents (Elt F)),
    binary main_v51 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v70 (broadcastInDim S1700000 ![] bcast_S_S1700000 : (⟨S_, .i32⟩ : BufTy).Contents (Elt F) → (⟨S1700000, .i32⟩ : BufTy).Contents (Elt F)),
    binary main_v51 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v51 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v60 main_v73 main_v74 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v67 main_v74 main_v75 (mulf : (⟨S1700000, .f32⟩ : BufTy).Contents (Elt F) → (⟨S1700000, .f32⟩ : BufTy).Contents (Elt F) → (⟨S1700000, .f32⟩ : BufTy).Contents (Elt F)),
    binary main_v48 main_arg4 main_v76 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    nullary main_c_18 (constantI S_ 32 0#32),
    unary main_c_18 main_v77 (broadcastInDim S1700000 ![] bcast_S_S1700000 : (⟨S_, .i32⟩ : BufTy).Contents (Elt F) → (⟨S1700000, .i32⟩ : BufTy).Contents (Elt F)),
    binary main_v50 main_v77 main_v78 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v79 (broadcastInDim S1700000 ![] bcast_S_S1700000 : (⟨S_, .i32⟩ : BufTy).Contents (Elt F) → (⟨S1700000, .i32⟩ : BufTy).Contents (Elt F)),
    binary main_v50 main_v79 main_v80 (addi : (⟨S1700000, .i32⟩ : BufTy).Contents (Elt F) → (⟨S1700000, .i32⟩ : BufTy).Contents (Elt F) → (⟨S1700000, .i32⟩ : BufTy).Contents (Elt F)),
    ternary main_v78 main_v80 main_v50 main_v81 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v81 main_v82 (broadcastInDim S1700000x1 ![0] bcast_S1700000_S1700000x1_0 : (⟨S1700000, .i32⟩ : BufTy).Contents (Elt F) → (⟨S1700000x1, .i32⟩ : BufTy).Contents (Elt F)),
    binary main_v76 main_v82 main_v83 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v75 main_v84 (broadcastInDim S1700000x1 ![0] bcast_S1700000_S1700000x1_0 : (⟨S1700000, .f32⟩ : BufTy).Contents (Elt F) → (⟨S1700000x1, .f32⟩ : BufTy).Contents (Elt F)),
    unary main_v84 main_v85 (broadcastInDim S1700000x32 ![0, 1] bcast_S1700000x1_S1700000x32_0_1 : (⟨S1700000x1, .f32⟩ : BufTy).Contents (Elt F) → (⟨S1700000x32, .f32⟩ : BufTy).Contents (Elt F)),
    binary main_v83 main_v85 main_v86 (mulf : (⟨S1700000x32, .f32⟩ : BufTy).Contents (Elt F) → (⟨S1700000x32, .f32⟩ : BufTy).Contents (Elt F) → (⟨S1700000x32, .f32⟩ : BufTy).Contents (Elt F)),
    nullary main_cst_20 (constant S_ .f32 0x00000000#32),
    unary main_cst_20 main_v87 (broadcastInDim S100000x32 ![] bcast_S_S100000x32 : (⟨S_, .f32⟩ : BufTy).Contents (Elt F) → (⟨S100000x32, .f32⟩ : BufTy).Contents (Elt F)),
    unary main_v51 main_v88 (broadcastInDim S1700000x1 ![0] bcast_S1700000_S1700000x1_0 : (⟨S1700000, .i32⟩ : BufTy).Contents (Elt F) → (⟨S1700000x1, .i32⟩ : BufTy).Contents (Elt F)),
    ternary main_v87 main_v88 main_v86 main_v89 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg5 main_v90 (broadcastInDim S1x32 ![1] bcast_S32_S1x32_1 : (⟨S32, .f32⟩ : BufTy).Contents (Elt F) → (⟨S1x32, .f32⟩ : BufTy).Contents (Elt F)),
    unary main_v90 main_v91 (broadcastInDim S100000x32 ![0, 1] bcast_S1x32_S100000x32_0_1 : (⟨S1x32, .f32⟩ : BufTy).Contents (Elt F) → (⟨S100000x32, .f32⟩ : BufTy).Contents (Elt F)),
    binary main_v89 main_v91 main_v92 (addf : (⟨S100000x32, .f32⟩ : BufTy).Contents (Elt F) → (⟨S100000x32, .f32⟩ : BufTy).Contents (Elt F) → (⟨S100000x32, .f32⟩ : BufTy).Contents (Elt F)),
    nullary main_cst_21 (constant S_ .f32 0x3C23D70A#32) ]

/-- The second rectifier (seven operations). -/
abbrev opsD3 : List (HloOp τ sig (Elt F)) :=
  [ TRef.nullary main_call3.cst (constant S_ .f32 0x00000000#32),
    TRef.unary main_call3.cst main_call3.v0 (broadcastInDim S100000x32 ![] bcast_S_S100000x32),
    TRef.binary (.of main_v92 : TRef sig ⟨S100000x32, .f32⟩) main_call3.v0 main_call3.v1 (cmpf .oge),
    TRef.unary (.of main_cst_21 : TRef sig ⟨S_, .f32⟩) main_call3.v2 id,
    TRef.unary main_call3.v2 main_call3.v3 (broadcastInDim S100000x32 ![] bcast_S_S100000x32),
    TRef.binary main_call3.v3 (.of main_v92 : TRef sig ⟨S100000x32, .f32⟩) main_call3.v4 mulf,
    TRef.ternary main_call3.v1 (.of main_v92 : TRef sig ⟨S100000x32, .f32⟩) main_call3.v4 main_call3.call0.v0 select ]

/-- The row-wise log-softmax (fifteen operations). -/
abbrev opsD4 : List (HloOp τ sig (Elt F)) :=
  [ TRef.nullary main_call4.cst (constant S_ .f32 0xFF800000#32),
    TRef.binary (.of main_v93 : TRef sig ⟨S100000x32, .f32⟩) main_call4.cst main_call4.v0 (fun x v => Host.reduce FloatOps.maximumf x v reducesTo_S100000x32_S100000_d1 h_S_),
    TRef.nullary main_call4.cst_0 (constant S_ .f32 0xFF800000#32),
    TRef.unary main_call4.cst_0 main_call4.v1 (broadcastInDim S100000 ![] bcast_S_S100000),
    TRef.binary main_call4.v1 main_call4.v0 main_call4.v2 maximumf,
    TRef.unary main_call4.v2 main_call4.v3 (broadcastInDim S100000x1 ![0] bcast_S100000_S100000x1_0),
    TRef.unary main_call4.v3 main_call4.v4 (broadcastInDim S100000x32 ![0, 1] bcast_S100000x1_S100000x32_0_1),
    TRef.binary (.of main_v93 : TRef sig ⟨S100000x32, .f32⟩) main_call4.v4 main_call4.v5 subf,
    TRef.unary main_call4.v5 main_call4.v6 Host.exp,
    TRef.nullary main_call4.cst_1 (constant S_ .f32 0x00000000#32),
    TRef.binary main_call4.v6 main_call4.cst_1 main_call4.v7 (fun x v => Host.reduceAdd x v reducesTo_S100000x32_S100000_d1 h_S_),
    TRef.unary main_call4.v7 main_call4.v8 (broadcastInDim S100000x1 ![0] bcast_S100000_S100000x1_0),
    TRef.unary main_call4.v8 main_call4.v9 Host.log,
    TRef.unary main_call4.v9 main_call4.v10 (broadcastInDim S100000x32 ![0, 1] bcast_S100000x1_S100000x32_0_1),
    TRef.binary main_call4.v5 main_call4.v10 main_call4.v11 subf ]

/-- The first window of @main, the second, and all of it, in program order. -/
abbrev ops0 : List (HloOp τ sig (Elt F)) := opsA ++ opsB1 ++ opsB2
abbrev ops1 : List (HloOp τ sig (Elt F)) := opsC ++ opsD1 ++ opsD2 ++ opsD3 ++ opsD4
abbrev ops : List (HloOp τ sig (Elt F)) := ops0 ++ ops1

set_option maxRecDepth 4096 in
/-- The first window is its line of operations: the one call unfolded, sequencing reassociated. -/
theorem part0_eq (c : Dev nD) : main_part0 (F := F) c = seq ops0 := by
  rw [seq_append, seq_append]
  simp only [main_part0, fn_where.body, seq, bind_assoc, pure_bind]
  rfl

set_option maxRecDepth 4096 in
/-- The second window likewise, its four calls (and the selects nested in two of them) unfolded. -/
theorem part1_eq (c : Dev nD) : main_part1 (F := F) c = seq ops1 := by
  rw [seq_append, seq_append, seq_append, seq_append]
  simp only [main_part1, fn_where.body, fn_where_0.body, fn_where_2.body, fn_leaky_relu.body, fn_leaky_relu_1.body,
    fn_log_softmax.body, seq, bind_assoc, pure_bind]

/-- @main runs the two windows in order, which is the concatenated line. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., binary_bufs_sub ..,
    binary_bufs_sub ..⟩

theorem opsB1_sub : (opsB1 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    ternary_bufs_sub ..⟩

theorem opsB2_sub : (opsB2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub ..⟩

theorem opsC_sub : (opsC : List (HloOp τ sig (Elt F))).Forall fun op => op.bufs ⊆ tcRefs τ sig :=
  ⟨nullary_bufs_sub .., unary_bufs_sub .., binary_bufs_sub .., unary_bufs_sub .., unary_bufs_sub .., binary_bufs_sub ..,
    ternary_bufs_sub .., nullary_bufs_sub .., binary_bufs_sub .., binary_bufs_sub ..⟩

theorem opsD1_sub : (opsD1 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    ternary_bufs_sub ..⟩

theorem opsD2_sub : (opsD2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub ..⟩

theorem opsD3_sub : (opsD3 : List (HloOp τ sig (Elt F))).Forall fun op => op.bufs ⊆ tcRefs τ sig :=
  ⟨nullary_bufs_sub .., unary_bufs_sub .., binary_bufs_sub .., unary_bufs_sub .., unary_bufs_sub .., binary_bufs_sub ..,
    ternary_bufs_sub ..⟩

theorem opsD4_sub : (opsD4 : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

/-- Every operation touches TensorCore buffers only. -/
theorem ops_sub : (ops : List (HloOp τ sig (Elt F))).Forall fun op => op.bufs ⊆ tcRefs τ sig :=
  List.forall_append.mpr
    ⟨List.forall_append.mpr ⟨List.forall_append.mpr ⟨opsA_sub, opsB1_sub⟩, opsB2_sub⟩,
     List.forall_append.mpr ⟨List.forall_append.mpr ⟨List.forall_append.mpr ⟨List.forall_append.mpr ⟨opsC_sub, opsD1_sub⟩,
       opsD2_sub⟩, opsD3_sub⟩, opsD4_sub⟩⟩

/-- The fold of a concatenation is the second half's fold after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The whole fold, piece after piece. -/
theorem after_ops (V : Valuation τ sig (Elt F)) :
    after ops V
      = after opsD4 (after opsD3 (after opsD2 (after opsD1 (after opsC (after opsB2 (after opsB1 (after opsA V))))))) := by
  simp only [after_append]

/-- At the compiled mesh, for any float values, from any memory with zero counters: every weakly fair execution of
    @main terminates, and every buffer ends at the fold of the operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.LibLayoutRead.lean ====
import Idealize.ShloMosaic.Lib.ValueIdx
import Idealize.ShloMosaic.Lib.Pipeline.Value
import Idealize.ShloMosaic.PureOps.Ideal.Laws

/-!
# Small re-layings read at an index, and the word of 1.0

A scalar splat to any shape reads the scalar everywhere; a vector `[a]` stood up as a column `[a, 1]` reads the vector's
entry of the row; a column `[a, 1]` repeated along `b` columns reads the column's entry of the row; a vector `[b]` stood
up as a one-row matrix `[1, b]`, by a broadcast or by a shape cast, reads the vector's entry of the column. The extents
are arbitrary. The 32-bit pattern `0x3F800000` denotes the real number 1.
-/

namespace Cert.LibLayoutRead

open Idealize.ShloMosaic Idealize.ShloMosaic.ValueIdx

/-- A scalar broadcast to any shape reads the scalar at every index. -/
theorem splat_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector stood up as a column reads, in row `i`, the vector's entry `i`. -/
theorem column_apply {α : Type} {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun d => match d with
    | ⟨0, _⟩ => by
      show i.val = if a = 1 then 0 else i.val
      split
      · next h1 => have := i.isLt; omega
      · rfl)

/-- A column repeated along the columns reads, at `(i, c)`, the column's entry of row `i`. -/
theorem alongCols_apply {α : Type} {a b : ℕ} (h : (⟨2, ![a, 1]⟩ : Shape).BroadcastsInDim ⟨2, ![a, b]⟩ ![0, 1])
    (x : (⟨2, ![a, 1]⟩ : Shape).Idx → α) (i : Fin a) (c : Fin b) :
    broadcastInDim ⟨2, ![a, b]⟩ ![0, 1] h x (ix2 i c) = x (ix2 i (0 : Fin 1)) :=
  broadcastInDim_apply _ h x (ix2 i c) (ix2 i (0 : Fin 1)) (fun d => match d with
    | ⟨0, _⟩ => by
      show i.val = if a = 1 then 0 else i.val
      split
      · next h1 => have := i.isLt; omega
      · rfl
    | ⟨1, _⟩ => by
      show (0 : ℕ) = if (1 : ℕ) = 1 then 0 else c.val
      rw [if_pos rfl])

/-- A vector stood up as a one-row matrix by a broadcast reads, in column `k`, the vector's entry `k`. -/
theorem row_apply {α : Type} {b : ℕ} (h : (⟨1, ![b]⟩ : Shape).BroadcastsInDim ⟨2, ![1, b]⟩ ![1])
    (x : (⟨1, ![b]⟩ : Shape).Idx → α) (u : Fin 1) (k : Fin b) :
    broadcastInDim ⟨2, ![1, b]⟩ ![1] h x (ix2 u k) = x (ix1 k) :=
  broadcastInDim_apply _ h x (ix2 u k) (ix1 k) (fun d => match d with
    | ⟨0, _⟩ => by
      show k.val = if b = 1 then 0 else k.val
      split
      · next h1 => have := k.isLt; omega
      · rfl)

/-- A vector re-laid as a one-row matrix by a shape cast reads, in column `k`, the vector's entry `k`. -/
theorem castRow_apply {α : Type} {b : ℕ} (h : (⟨1, ![b]⟩ : Shape).ShapeCasts ⟨2, ![1, b]⟩)
    (x : (⟨1, ![b]⟩ : Shape).Idx → α) (u : Fin 1) (k : Fin b) :
    shapeCast ⟨2, ![1, b]⟩ x h (ix2 u k) = x (ix1 k) :=
  shapeCast_apply x h (ix2 u k) (ix1 k) (by
    rewrite [Shape.rowMajor_val_one, Shape.rowMajor_val_two]
    show k.val = u.val * b + k.val
    have hu : u.val = 0 := by have := u.isLt; omega
    rw [hu, Nat.zero_mul, Nat.zero_add])

/-- The pattern `0x3F800000` is the real number 1. -/
theorem one_word : Ideal.ofBits .f32 0x3F800000#32 = 1 := by
  simp [Ideal.ofBits, Ideal.ieee, -EReal.coe_mul]; norm_num

end Cert.LibLayoutRead
-- ==== Proof.HostSpell.lean ====
import Idealize.ShloMosaic.Lib.ValueIdx
import Idealize.ShloMosaic.Lib.IdealHost
import Idealize.ShloMosaic.Lib.Pipeline.Value
import Idealize.ShloMosaic.PureOps.Ideal.Laws
import proofs.«107355_j11166914969680_1_alg».proof.Proof.Spec
import proofs.«107355_j11166914969680_1_alg».proof.Proof.LibRowLayers
import proofs.«107355_j11166914969680_1_alg».proof.Proof.LibLayoutRead
import proofs.«107355_j11166914969680_1_alg».proof.Proof.LibRowExtrema
import proofs.«107355_j11166914969680_1_alg».proof.Proof.LibPlainDot

/-!
# The host program's spelling of three dense steps, as whole-array equalities over the extended reals

A rows-by-columns product, the bias row followed by the leaky rectifier, and the row-wise log-softmax are each written
by the host program as a short chain of array operations (broadcasts of scalars and of vectors, a comparison and a
select, two reductions along the rows). Read index by index over the extended reals each chain is the function the
specification names: `rowsTimes`, `leakyRow`, `lsmRows`. Extents are arbitrary; every shape fact is a hypothesis.
-/

noncomputable section

namespace Cert.HostSpell

open Idealize.ShloMosaic Idealize.ShloMosaic.ValueIdx
open scoped BigOperators

variable {M K N : Nat}

/-- The host's product of `[M, K]` by `[K, N]`, contracting the inner axis: every row of `x` times `w`. -/
theorem host_dot {φ₁ φ₂ : FTy} (d : DotDims ⟨2, ![M, K]⟩ ⟨2, ![K, N]⟩ ⟨2, ![M, N]⟩) (h : LibPlainDot.Plain d)
    (x : FVec Ideal ⟨2, ![M, K]⟩ φ₁) (w : FVec Ideal ⟨2, ![K, N]⟩ φ₂) :
    Host.dotGeneral (F := Ideal) d none x w = Cert.Layers.rowsTimes x w :=
  Cert.Layers.dotGeneral_eq d h none .single x w

/-- The rectifier written as a select between `v` and `s · v` on the test `v ≥ z`, for any two scalars `z` and `s`
    that read zero and the slope, after the bias row has been added: entry `(p, q)` is `leaky (y (p, q) + b q)`. -/
theorem host_leaky_of (y : FVec Ideal ⟨2, ![M, N]⟩ .f32) (b : FVec Ideal ⟨1, ![N]⟩ .f32)
    (z s : FVec Ideal ⟨0, ![]⟩ .f32) (hz : z ix0 = Cert.Gcn.zeroW) (hs : s ix0 = Cert.Gcn.slopeW)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ ![]) :
    select (cmpf .oge (addf y (broadcastInDim ⟨2, ![M, N]⟩ ![0, 1] h2 (broadcastInDim ⟨2, ![1, N]⟩ ![1] h1 b)))
              (broadcastInDim ⟨2, ![M, N]⟩ ![] h0 z))
        (addf y (broadcastInDim ⟨2, ![M, N]⟩ ![0, 1] h2 (broadcastInDim ⟨2, ![1, N]⟩ ![1] h1 b)))
        (mulf (broadcastInDim ⟨2, ![M, N]⟩ ![] h0 s)
              (addf y (broadcastInDim ⟨2, ![M, N]⟩ ![0, 1] h2 (broadcastInDim ⟨2, ![1, N]⟩ ![1] h1 b))))
      = Cert.Gcn.leakyRow y b := by
  funext i
  obtain ⟨p, q, rfl⟩ : ∃ (p : Fin M) (q : Fin N), i = ix2 p q := ⟨i 0, i 1, eq_ix2 i⟩
  rw [select_apply, cmpf_apply, mulf_apply, addf_apply, Cert.Layers.rows_of_vector_apply b h1 h2 p q,
    LibLayoutRead.splat_apply h0 z, LibLayoutRead.splat_apply h0 s, hz, hs, Cert.Gcn.leakyRow_apply]
  exact Cert.Gcn.leaky_oge _

/-- The same with the two scalars as the host writes them: the constant zero, and the slope constant passed through a
    conversion to its own format (the identity). -/
theorem host_leaky (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ ![]) :
    select (cmpf .oge (addf y (broadcastInDim ⟨2, ![M, N]⟩ ![0, 1] h2 (broadcastInDim ⟨2, ![1, N]⟩ ![1] h1 b)))
              (broadcastInDim ⟨2, ![M, N]⟩ ![] h0 (constant (F := Ideal) ⟨0, ![]⟩ .f32 0x00000000#32)))
        (addf y (broadcastInDim ⟨2, ![M, N]⟩ ![0, 1] h2 (broadcastInDim ⟨2, ![1, N]⟩ ![1] h1 b)))
        (mulf (broadcastInDim ⟨2, ![M, N]⟩ ![] h0 (id (constant (F := Ideal) ⟨0, ![]⟩ .f32 0x3C23D70A#32)))
              (addf y (broadcastInDim ⟨2, ![M, N]⟩ ![0, 1] h2 (broadcastInDim ⟨2, ![1, N]⟩ ![1] h1 b))))
      = Cert.Gcn.leakyRow y b :=
  host_leaky_of y b _ _ rfl rfl h1 h2 h0

/-- … and with the conversion already dropped. -/
theorem host_leaky' (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ ![]) :
    select (cmpf .oge (addf y (broadcastInDim ⟨2, ![M, N]⟩ ![0, 1] h2 (broadcastInDim ⟨2, ![1, N]⟩ ![1] h1 b)))
              (broadcastInDim ⟨2, ![M, N]⟩ ![] h0 (constant (F := Ideal) ⟨0, ![]⟩ .f32 0x00000000#32)))
        (addf y (broadcastInDim ⟨2, ![M, N]⟩ ![0, 1] h2 (broadcastInDim ⟨2, ![1, N]⟩ ![1] h1 b)))
        (mulf (broadcastInDim ⟨2, ![M, N]⟩ ![] h0 (constant (F := Ideal) ⟨0, ![]⟩ .f32 0x3C23D70A#32))
              (addf y (broadcastInDim ⟨2, ![M, N]⟩ ![0, 1] h2 (broadcastInDim ⟨2, ![1, N]⟩ ![1] h1 b))))
      = Cert.Gcn.leakyRow y b :=
  host_leaky_of y b _ _ rfl rfl h1 h2 h0

/-- The host's row maximum from minus infinity, then the maximum of that with minus infinity again: `rowMax`. The
    second maximum changes nothing because a fold of `max` is at least the value it starts from. -/
theorem host_rowMax (x : FVec Ideal ⟨2, ![M, N]⟩ .f32)
    (hred : (⟨2, ![M, N]⟩ : Shape).ReducesTo [1] ⟨1, ![M]⟩) (h : (⟨2, ![M, N]⟩ : Shape).Reduces [1] ⟨1, ![M]⟩)
    (hu : 0 < (⟨0, ![]⟩ : Shape).numel) (hs : (⟨0, ![]⟩ : Shape).BroadcastsInDim ⟨1, ![M]⟩ ![]) (p : Fin M) :
    maximumf (broadcastInDim ⟨1, ![M]⟩ ![] hs (constant (F := Ideal) ⟨0, ![]⟩ .f32 0xFF800000#32))
        (Host.reduce FloatOps.maximumf x (constant (F := Ideal) ⟨0, ![]⟩ .f32 0xFF800000#32) hred hu) (ix1 p)
      = Cert.Gcn.rowMax x p := by
  rw [maximumf_apply, LibLayoutRead.splat_apply hs,
    Host.reduce_eq_fold_single FloatOps.maximumf x _ hred h hu (ix1 p)]
  show max Cert.Gcn.negInfW (Finset.fold max Cert.Gcn.negInfW (x ∘ h.lift (ix1 p)) Finset.univ) = Cert.Gcn.rowMax x p
  refine (max_eq_right ((Finset.le_fold_max _).mpr (Or.inl le_rfl))).trans ?_
  unfold Cert.Gcn.rowMax
  exact congrArg (fun f => (Finset.univ : Finset (Fin N)).fold max Cert.Gcn.negInfW f)
    (funext fun q => congrArg x (LibRowExtrema.lift_row h p q))

/-- The host's sum along each row from zero is the finite sum over the row. -/
theorem host_rowSum (e : FVec Ideal ⟨2, ![M, N]⟩ .f32)
    (hred : (⟨2, ![M, N]⟩ : Shape).ReducesTo [1] ⟨1, ![M]⟩) (h : (⟨2, ![M, N]⟩ : Shape).Reduces [1] ⟨1, ![M]⟩)
    (hu : 0 < (⟨0, ![]⟩ : Shape).numel) (p : Fin M) :
    Host.reduceAdd e (constant (F := Ideal) ⟨0, ![]⟩ .f32 0x00000000#32) hred hu (ix1 p) = ∑ q : Fin N, e (ix2 p q) := by
  rw [hostReduceAdd_apply]
  refine (Ideal.hostReduceAdd_single hred h e _ (ix1 p)).trans ?_
  show Cert.Gcn.zeroW + ∑ q : Fin N, e (h.lift (ix1 p) q) = _
  refine (congrArg (fun z => z + ∑ q : Fin N, e (h.lift (ix1 p) q)) Ideal.ofBits_zero_f32).trans ((zero_add _).trans ?_)
  exact Finset.sum_congr rfl fun q _ => congrArg e (LibRowExtrema.lift_row h p q)

/-- From an array `sh` that already holds each entry minus its row's maximum: the host's sum of exponentials along
    each row from zero, its logarithm stood up as a column and repeated along the columns, subtracted from `sh`, is
    `lsmRows`. -/
theorem host_lsm_tail (x sh : FVec Ideal ⟨2, ![M, N]⟩ .f32)
    (hsh : ∀ (p : Fin M) (q : Fin N), sh (ix2 p q) = x (ix2 p q) - Cert.Gcn.rowMax x p)
    (hred : (⟨2, ![M, N]⟩ : Shape).ReducesTo [1] ⟨1, ![M]⟩) (h : (⟨2, ![M, N]⟩ : Shape).Reduces [1] ⟨1, ![M]⟩)
    (hu : 0 < (⟨0, ![]⟩ : Shape).numel)
    (hc1 : (⟨1, ![M]⟩ : Shape).BroadcastsInDim ⟨2, ![M, 1]⟩ ![0])
    (hc2 : (⟨2, ![M, 1]⟩ : Shape).BroadcastsInDim ⟨2, ![M, N]⟩ ![0, 1]) :
    subf sh (broadcastInDim ⟨2, ![M, N]⟩ ![0, 1] hc2
        (Host.log (broadcastInDim ⟨2, ![M, 1]⟩ ![0] hc1
          (Host.reduceAdd (Host.exp sh) (constant (F := Ideal) ⟨0, ![]⟩ .f32 0x00000000#32) hred hu))))
      = Cert.Gcn.lsmRows x := by
  funext i
  obtain ⟨p, q, rfl⟩ : ∃ (p : Fin M) (q : Fin N), i = ix2 p q := ⟨i 0, i 1, eq_ix2 i⟩
  rw [subf_apply, LibLayoutRead.alongCols_apply hc2 _ p q, hsh p q, Cert.Gcn.lsmRows_apply]
  show _ - Ideal.log (broadcastInDim ⟨2, ![M, 1]⟩ ![0] hc1
      (Host.reduceAdd (Host.exp sh) (constant (F := Ideal) ⟨0, ![]⟩ .f32 0x00000000#32) hred hu) (ix2 p (0 : Fin 1))) = _
  rw [LibLayoutRead.column_apply hc1 _ p (0 : Fin 1), host_rowSum (Host.exp sh) hred h hu p]
  refine congrArg (fun s => (x (ix2 p q) - Cert.Gcn.rowMax x p) - Ideal.log s) (Finset.sum_congr rfl fun k _ => ?_)
  show Ideal.exp (sh (ix2 p k)) = _
  rw [hsh p k]

/-- The host's row-wise log-softmax, every step written out: `lsmRows`. -/
theorem host_lsm (x : FVec Ideal ⟨2, ![M, N]⟩ .f32)
    (hred : (⟨2, ![M, N]⟩ : Shape).ReducesTo [1] ⟨1, ![M]⟩) (h : (⟨2, ![M, N]⟩ : Shape).Reduces [1] ⟨1, ![M]⟩)
    (hu : 0 < (⟨0, ![]⟩ : Shape).numel) (hs : (⟨0, ![]⟩ : Shape).BroadcastsInDim ⟨1, ![M]⟩ ![])
    (hc1 : (⟨1, ![M]⟩ : Shape).BroadcastsInDim ⟨2, ![M, 1]⟩ ![0])
    (hc2 : (⟨2, ![M, 1]⟩ : Shape).BroadcastsInDim ⟨2, ![M, N]⟩ ![0, 1]) :
    subf (subf x (broadcastInDim ⟨2, ![M, N]⟩ ![0, 1] hc2 (broadcastInDim ⟨2, ![M, 1]⟩ ![0] hc1
            (maximumf (broadcastInDim ⟨1, ![M]⟩ ![] hs (constant (F := Ideal) ⟨0, ![]⟩ .f32 0xFF800000#32))
              (Host.reduce FloatOps.maximumf x (constant (F := Ideal) ⟨0, ![]⟩ .f32 0xFF800000#32) hred hu)))))
        (broadcastInDim ⟨2, ![M, N]⟩ ![0, 1] hc2
          (Host.log (broadcastInDim ⟨2, ![M, 1]⟩ ![0] hc1
            (Host.reduceAdd
              (Host.exp (subf x (broadcastInDim ⟨2, ![M, N]⟩ ![0, 1] hc2 (broadcastInDim ⟨2, ![M, 1]⟩ ![0] hc1
                (maximumf (broadcastInDim ⟨1, ![M]⟩ ![] hs (constant (F := Ideal) ⟨0, ![]⟩ .f32 0xFF800000#32))
                  (Host.reduce FloatOps.maximumf x (constant (F := Ideal) ⟨0, ![]⟩ .f32 0xFF800000#32) hred hu))))))
              (constant (F := Ideal) ⟨0, ![]⟩ .f32 0x00000000#32) hred hu))))
      = Cert.Gcn.lsmRows x :=
  host_lsm_tail x _ (fun p q => by
    rw [subf_apply, LibLayoutRead.alongCols_apply hc2 _ p q, LibLayoutRead.column_apply hc1 _ p (0 : Fin 1),
      host_rowMax x hred h hu hs p]) hred h hu hc1 hc2

end Cert.HostSpell

end
-- ==== Proof.RAgg.lean ====
import proofs.«107355_j11166914969680_1_alg».proof.ReferenceIdeal
import Idealize.ShloMosaic.PureOps.Ideal

/-!
# The edge aggregation, as the reference program's host operations spell it

From the edge array `e : i32[2, 1600000]` (row 0 the sources, row 1 the destinations): each row with the
self-loops `0 … 99999` appended (`srcIdx`, `dstIdx`); an index word made a gather's start index, negative words
wrapped by the number of nodes (`wrapIdx`); the in-degree of every node, counting its self-loop (`deg`), its inverse
square root where the degree is positive and zero elsewhere (`dinv`), and per edge the product of the two end
points' values (`norm`). The aggregation of a node array `h`: gather the source rows, scale each by its edge's
`norm`, and add every scaled row into its destination node's row of a zero array (`agg64`, `agg32`: the same for 64
and for 32 columns). These are the literal compositions of the program's operations, never opened by the proofs
that use them.
-/

noncomputable section

namespace Cert.ReferenceIdeal.Hand

open Idealize.ShloMosaic Cert.ReferenceIdeal

variable [Facts]
open Facts₀ Facts

/-- The sources, then the self-loops. -/
def srcIdx (e : IVec S2x1600000 32) : IVec S1700000 32 :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

/-- The destinations, then the self-loops. -/
def dstIdx (e : IVec S2x1600000 32) : IVec S1700000 32 :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- Index words as a gather's start indices: a negative word wrapped by the number of nodes, stood up as a column. -/
def wrapIdx (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Index words as a scatter's indices: stood up as a column. -/
def colIdx (s : IVec S1700000 32) : IVec S1700000x1 32 :=
  broadcastInDim S1700000x1 ![0] bcast_S1700000_S1700000x1_0 s

/-- Every node's in-degree, its self-loop counted. -/
def deg (e : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (colIdx (dstIdx e))
    (broadcastInDim S1700000 ![] bcast_S_S1700000 (constant (F := Ideal) S_ .f32 0x3F800000#32))

/-- The inverse square root of the degree where it is positive, zero elsewhere. -/
def dinv (e : IVec S2x1600000 32) : FVec Ideal S100000 .f32 :=
  select (cmpf .ogt (deg e) (broadcastInDim S100000 ![] bcast_S_S100000 (constant (F := Ideal) S_ .f32 0x00000000#32)))
    (Host.rsqrt (F := Ideal) (deg e))
    (broadcastInDim S100000 ![] bcast_S_S100000 (constant (F := Ideal) S_ .f32 0x00000000#32))

/-- Per edge, the product of its two end points' inverse square roots. -/
def norm (e : IVec S2x1600000 32) : FVec Ideal S1700000 .f32 :=
  mulf (Host.gather gather_S100000_S1700000x1_S1700000_n_0_n_n_0_1_1 (dinv e) (wrapIdx (srcIdx e)))
    (Host.gather gather_S100000_S1700000x1_S1700000_n_0_n_n_0_1_1 (dinv e) (wrapIdx (dstIdx e)))

/-- The aggregation of a 64-column node array. -/
def agg64 (e : IVec S2x1600000 32) (h : FVec Ideal S100000x64 .f32) :
    FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (colIdx (dstIdx e))
    (mulf (Host.gather gather_S100000x64_S1700000x1_S1700000x64_1_0_n_n_0_1_164 h (wrapIdx (srcIdx e)))
      (broadcastInDim S1700000x64 ![0, 1] bcast_S1700000x1_S1700000x64_0_1
        (broadcastInDim S1700000x1 ![0] bcast_S1700000_S1700000x1_0 (norm e))))

/-- The aggregation of a 32-column node array. -/
def agg32 (e : IVec S2x1600000 32) (h : FVec Ideal S100000x32 .f32) :
    FVec Ideal S100000x32 .f32 :=
  Host.scatterAdd (F := Ideal) scatter_S100000x32_S1700000x1_S1700000x32_1_0_0_1
    (broadcastInDim S100000x32 ![] bcast_S_S100000x32 (constant (F := Ideal) S_ .f32 0x00000000#32))
    (colIdx (dstIdx e))
    (mulf (Host.gather gather_S100000x32_S1700000x1_S1700000x32_1_0_n_n_0_1_132 h (wrapIdx (srcIdx e)))
      (broadcastInDim S1700000x32 ![0, 1] bcast_S1700000x1_S1700000x32_0_1
        (broadcastInDim S1700000x1 ![0] bcast_S1700000_S1700000x1_0 (norm e))))

end Cert.ReferenceIdeal.Hand

end
-- ==== Proof.RefArgs.lean ====
import proofs.«107355_j11166914969680_1_alg».proof.Proof.RefOps

/-!
# The reference leaves its arguments as it found them

No operation of the reference writes one of the six argument arrays (the features, the edges, the two weight matrices
and the two bias vectors): each operation's result goes to a buffer of its own. So after the whole list of operations
every argument array holds what it held at the start.
-/

noncomputable section

namespace Cert.ReferenceIdeal.Hand

open Idealize.ShloMosaic Idealize.ShloMosaic.TcCoe Idealize.ShloMosaic.StableHlo Idealize.SL.Sem

variable {F : FTy → Type} [FloatOps F]
variable [Facts]
open Facts₀ Facts

set_option maxRecDepth 8192 in
set_option maxHeartbeats 1000000 in
/-- The feature array is no operation's result, so the operations leave it unchanged. -/
theorem arg0_eq (V : Valuation τ sig (Elt F)) :
    after ops V (main_arg0 : DevRef τ sig) = V (main_arg0 : DevRef τ sig) := by
  rw [after_ops]; after_results_simp

set_option maxRecDepth 8192 in
set_option maxHeartbeats 1000000 in
/-- The edge array is no operation's result, so the operations leave it unchanged. -/
theorem arg1_eq (V : Valuation τ sig (Elt F)) :
    after ops V (main_arg1 : DevRef τ sig) = V (main_arg1 : DevRef τ sig) := by
  rw [after_ops]; after_results_simp

set_option maxRecDepth 8192 in
set_option maxHeartbeats 1000000 in
/-- The first weight matrix is no operation's result, so the operations leave it unchanged. -/
theorem arg2_eq (V : Valuation τ sig (Elt F)) :
    after ops V (main_arg2 : DevRef τ sig) = V (main_arg2 : DevRef τ sig) := by
  rw [after_ops]; after_results_simp

set_option maxRecDepth 8192 in
set_option maxHeartbeats 1000000 in
/-- The first bias vector is no operation's result, so the operations leave it unchanged. -/
theorem arg3_eq (V : Valuation τ sig (Elt F)) :
    after ops V (main_arg3 : DevRef τ sig) = V (main_arg3 : DevRef τ sig) := by
  rw [after_ops]; after_results_simp

set_option maxRecDepth 8192 in
set_option maxHeartbeats 1000000 in
/-- The second weight matrix is no operation's result, so the operations leave it unchanged. -/
theorem arg4_eq (V : Valuation τ sig (Elt F)) :
    after ops V (main_arg4 : DevRef τ sig) = V (main_arg4 : DevRef τ sig) := by
  rw [after_ops]; after_results_simp

set_option maxRecDepth 8192 in
set_option maxHeartbeats 1000000 in
/-- The second bias vector is no operation's result, so the operations leave it unchanged. -/
theorem arg5_eq (V : Valuation τ sig (Elt F)) :
    after ops V (main_arg5 : DevRef τ sig) = V (main_arg5 : DevRef τ sig) := by
  rw [after_ops]; after_results_simp

end Cert.ReferenceIdeal.Hand

end
-- ==== Proof.RefValue.lean ====
import proofs.«107355_j11166914969680_1_alg».proof.Proof.RefOps
import proofs.«107355_j11166914969680_1_alg».proof.Proof.Spec
import proofs.«107355_j11166914969680_1_alg».proof.Proof.HostSpell
import proofs.«107355_j11166914969680_1_alg».proof.Proof.RAgg
import proofs.«107355_j11166914969680_1_alg».proof.Proof.RefArgs

/-!
# What the reference program computes

The reference is a two-layer graph convolution. From the edge array it builds two index vectors (every edge's source,
resp. target, followed by one self-loop per node), counts how many entries point at each node (the degree), takes the
inverse square root of the positive degrees, and weighs every entry by the product of the two values at its ends.
A layer multiplies the node features by a weight matrix, gathers the rows at the sources, scales each by its weight,
adds them up at the targets, and adds a bias row; the first layer is followed by a leaky rectifier, the second by a
leaky rectifier and a row-wise log-softmax. The second layer rebuilds the index vectors and the weights from the same
edge array, so as functions of that array they are the same terms (`agg64`, `agg32` of the module that spells the
aggregation out).

The fold of the program's operations at the result buffer is read piece by piece (each piece's result a composition of
the printed operations over the previous piece's), and the dense steps are then recognised: the two products as
row-times-matrix sums, the bias with the rectifier, and the log-softmax, which leaves the network of `Spec.lean` with
the two edge aggregations as its parameters.
-/

set_option synthInstance.maxSize 4096

noncomputable section

namespace Cert.ReferenceIdeal.Hand

open Idealize.ShloMosaic Idealize.ShloMosaic.TcCoe Idealize.ShloMosaic.StableHlo Idealize.SL.Sem

variable [Facts]
open Facts₀ Facts

/-! ## The pieces' values, over the index vectors -/

/-- The sources of the edges: row 0 of the edge array, as a vector; the targets: row 1. -/
def row0 (e : IVec S2x1600000 32) : IVec S1600000 32 :=
  shapeCast S1600000 (extractStridedSlice S1x1600000 ![0, 0] e slices_S2x1600000_S1x1600000_0_0) shapeCasts_S1x1600000_S1600000
def row1 (e : IVec S2x1600000 32) : IVec S1600000 32 :=
  shapeCast S1600000 (extractStridedSlice S1x1600000 ![1, 0] e slices_S2x1600000_S1x1600000_1_0) shapeCasts_S1x1600000_S1600000

/-- A vector of edge ends followed by the node numbers `0 … 99999`: one self-loop per node. -/
def withLoops (r : IVec S1600000 32) : IVec S1700000 32 :=
  concatenate S1700000 0 [⟨S1600000, r⟩, ⟨S100000, iotaInDim S100000 32 0⟩] concatenates_S1600000_S100000_S1700000_d0

theorem withLoops_row0 (e : IVec S2x1600000 32) : withLoops (row0 e) = srcIdx e := rfl
theorem withLoops_row1 (e : IVec S2x1600000 32) : withLoops (row1 e) = dstIdx e := rfl

/-- The degree from a vector of targets: ones added up at the targets, from zero. -/
def degOf (d : IVec S1700000 32) : FVec Ideal S100000 .f32 :=
  Host.scatterAdd (F := Ideal) scatter_S100000_S1700000x1_S1700000_n_0_0_1
    (broadcastInDim S100000 ![] bcast_S_S100000 (constant (F := Ideal) S_ .f32 0x00000000#32))
    (colIdx d)
    (broadcastInDim S1700000 ![] bcast_S_S1700000 (constant (F := Ideal) S_ .f32 0x3F800000#32))

/-- The inverse square root of the degree where it is positive, zero elsewhere. -/
def dinvOf (d : IVec S1700000 32) : FVec Ideal S100000 .f32 :=
  select (cmpf .ogt (degOf d) (broadcastInDim S100000 ![] bcast_S_S100000 (constant (F := Ideal) S_ .f32 0x00000000#32)))
    (Host.rsqrt (F := Ideal) (degOf d))
    (broadcastInDim S100000 ![] bcast_S_S100000 (constant (F := Ideal) S_ .f32 0x00000000#32))

/-- An entry's weight from a per-node value `dv`: the product of that value at its source and at its target. -/
def normW (s d : IVec S1700000 32) (dv : FVec Ideal S100000 .f32) : FVec Ideal S1700000 .f32 :=
  mulf (Host.gather gather_S100000_S1700000x1_S1700000_n_0_n_n_0_1_1 dv (wrapIdx s)) (Host.gather gather_S100000_S1700000x1_S1700000_n_0_n_n_0_1_1 dv (wrapIdx d))

/-- The rows of `h` gathered at the sources, each scaled by its entry's weight, added up at the targets from zero. -/
def aggW64 (s d : IVec S1700000 32) (dv : FVec Ideal S100000 .f32) (h : FVec Ideal S100000x64 .f32) :
    FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (colIdx d)
    (mulf (Host.gather gather_S100000x64_S1700000x1_S1700000x64_1_0_n_n_0_1_164 h (wrapIdx s))
      (broadcastInDim S1700000x64 ![0, 1] bcast_S1700000x1_S1700000x64_0_1
        (broadcastInDim S1700000x1 ![0] bcast_S1700000_S1700000x1_0 (normW s d dv))))
def aggW32 (s d : IVec S1700000 32) (dv : FVec Ideal S100000 .f32) (h : FVec Ideal S100000x32 .f32) :
    FVec Ideal S100000x32 .f32 :=
  Host.scatterAdd (F := Ideal) scatter_S100000x32_S1700000x1_S1700000x32_1_0_0_1
    (broadcastInDim S100000x32 ![] bcast_S_S100000x32 (constant (F := Ideal) S_ .f32 0x00000000#32))
    (colIdx d)
    (mulf (Host.gather gather_S100000x32_S1700000x1_S1700000x32_1_0_n_n_0_1_132 h (wrapIdx s))
      (broadcastInDim S1700000x32 ![0, 1] bcast_S1700000x1_S1700000x32_0_1
        (broadcastInDim S1700000x1 ![0] bcast_S1700000_S1700000x1_0 (normW s d dv))))

/-- At the two index vectors of the edge array, with the inverse square roots of its degrees, these are the
    aggregations as functions of that array. -/
theorem aggW64_eq (e : IVec S2x1600000 32) (h : FVec Ideal S100000x64 .f32) :
    aggW64 (srcIdx e) (dstIdx e) (dinvOf (dstIdx e)) h = agg64 e h := rfl
theorem aggW32_eq (e : IVec S2x1600000 32) (h : FVec Ideal S100000x32 .f32) :
    aggW32 (srcIdx e) (dstIdx e) (dinvOf (dstIdx e)) h = agg32 e h := rfl
/-! ## The dense steps, as the reference spells them -/

/-- The rectifier's body: `y` where `y ≥ 0`, the slope times `y` elsewhere (64 and 32 columns). -/
def leakB64 (y : FVec Ideal S100000x64 .f32) (s : FVec Ideal S_ .f32) : FVec Ideal S100000x64 .f32 :=
  select (cmpf .oge y (broadcastInDim S100000x64 ![] bcast_S_S100000x64 (constant (F := Ideal) S_ .f32 0x00000000#32))) y
    (mulf (broadcastInDim S100000x64 ![] bcast_S_S100000x64 (id s)) y)
def leakB32 (y : FVec Ideal S100000x32 .f32) (s : FVec Ideal S_ .f32) : FVec Ideal S100000x32 .f32 :=
  select (cmpf .oge y (broadcastInDim S100000x32 ![] bcast_S_S100000x32 (constant (F := Ideal) S_ .f32 0x00000000#32))) y
    (mulf (broadcastInDim S100000x32 ![] bcast_S_S100000x32 (id s)) y)

/-- A bias vector repeated down the rows. -/
def biasRows64 (b : FVec Ideal S64 .f32) : FVec Ideal S100000x64 .f32 :=
  broadcastInDim S100000x64 ![0, 1] bcast_S1x64_S100000x64_0_1 (broadcastInDim S1x64 ![1] bcast_S64_S1x64_1 b)
def biasRows32 (b : FVec Ideal S32 .f32) : FVec Ideal S100000x32 .f32 :=
  broadcastInDim S100000x32 ![0, 1] bcast_S1x32_S100000x32_0_1 (broadcastInDim S1x32 ![1] bcast_S32_S1x32_1 b)

/-- Each row's maximum (from minus infinity, and once more against minus infinity). -/
def lsmMax (x : FVec Ideal S100000x32 .f32) : FVec Ideal S100000 .f32 :=
  maximumf (broadcastInDim S100000 ![] bcast_S_S100000 (constant (F := Ideal) S_ .f32 0xFF800000#32))
    (Host.reduce FloatOps.maximumf x (constant (F := Ideal) S_ .f32 0xFF800000#32) reducesTo_S100000x32_S100000_d1 h_S_)

/-- Each entry minus its row's maximum. -/
def lsmShift (x : FVec Ideal S100000x32 .f32) : FVec Ideal S100000x32 .f32 :=
  subf x (broadcastInDim S100000x32 ![0, 1] bcast_S100000x1_S100000x32_0_1
    (broadcastInDim S100000x1 ![0] bcast_S100000_S100000x1_0 (lsmMax x)))

/-- The log-softmax's body: the shifted entries minus the logarithm of the row sums of their exponentials. -/
def lsmB (x : FVec Ideal S100000x32 .f32) : FVec Ideal S100000x32 .f32 :=
  subf (lsmShift x) (broadcastInDim S100000x32 ![0, 1] bcast_S100000x1_S100000x32_0_1
    (Host.log (broadcastInDim S100000x1 ![0] bcast_S100000_S100000x1_0
      (Host.reduceAdd (Host.exp (lsmShift x)) (constant (F := Ideal) S_ .f32 0x00000000#32) reducesTo_S100000x32_S100000_d1 h_S_))))

/-! ## The fold, piece by piece

Each piece's results are the printed operations composed over the buffers the earlier pieces left; the bodies of the
scatter, gather and reductions are never looked into. -/

attribute [local irreducible] Host.scatterAdd Host.gather Host.reduce Host.reduceAdd Host.rsqrt Host.exp Host.log concatenate

section Pieces

set_option maxRecDepth 8192
set_option maxHeartbeats 1000000

theorem A_v1 (V : Valuation τ sig (Elt Ideal)) : after opsA V (main_v1 : DevRef τ sig) = row0 (V (main_arg1 : DevRef τ sig)) := by
  after_results
  rfl

theorem A_v3 (V : Valuation τ sig (Elt Ideal)) : after opsA V (main_v3 : DevRef τ sig) = row1 (V (main_arg1 : DevRef τ sig)) := by
  after_results
  rfl

theorem A_v5 (V : Valuation τ sig (Elt Ideal)) :
    after opsA V (main_v5 : DevRef τ sig) = withLoops (row0 (V (main_arg1 : DevRef τ sig))) := by
  after_results
  rfl

theorem A_v6 (V : Valuation τ sig (Elt Ideal)) :
    after opsA V (main_v6 : DevRef τ sig) = withLoops (row1 (V (main_arg1 : DevRef τ sig))) := by
  after_results
  rfl

theorem B1_v15 (W : Valuation τ sig (Elt Ideal)) : after opsB1 W (main_v15 : DevRef τ sig) = dinvOf (W (main_v6 : DevRef τ sig)) := by
  after_results_simp
  unfold dinvOf degOf colIdx
  exact cast_eq _ _

theorem B1_v5 (W : Valuation τ sig (Elt Ideal)) : after opsB1 W (main_v5 : DevRef τ sig) = W (main_v5 : DevRef τ sig) := by
  after_results_simp

theorem B1_v6 (W : Valuation τ sig (Elt Ideal)) : after opsB1 W (main_v6 : DevRef τ sig) = W (main_v6 : DevRef τ sig) := by
  after_results_simp

theorem AB1_arg0 (V : Valuation τ sig (Elt Ideal)) :
    after opsB1 (after opsA V) (main_arg0 : DevRef τ sig) = V (main_arg0 : DevRef τ sig) := by
  after_results_simp

theorem AB1_arg2 (V : Valuation τ sig (Elt Ideal)) :
    after opsB1 (after opsA V) (main_arg2 : DevRef τ sig) = V (main_arg2 : DevRef τ sig) := by
  after_results_simp

theorem AB1_arg3 (V : Valuation τ sig (Elt Ideal)) :
    after opsB1 (after opsA V) (main_arg3 : DevRef τ sig) = V (main_arg3 : DevRef τ sig) := by
  after_results_simp

theorem B2_v47 (W : Valuation τ sig (Elt Ideal)) :
    after opsB2 W (main_v47 : DevRef τ sig)
      = addf (aggW64 (W (main_v5 : DevRef τ sig)) (W (main_v6 : DevRef τ sig)) (W (main_v15 : DevRef τ sig))
                (Host.dotGeneral (F := Ideal) (φ₁ := .f32) (φ₂ := .f32) dot_S100000x256_S256x64_S100000x64_1_0_0_1_n_n none (W (main_arg0 : DevRef τ sig)) (W (main_arg2 : DevRef τ sig))))
          (biasRows64 (W (main_arg3 : DevRef τ sig))) := by
  after_results_simp
  rfl

theorem B2_cst9 (W : Valuation τ sig (Elt Ideal)) : after opsB2 W (main_cst_9 : DevRef τ sig) = (constant (F := Ideal) S_ .f32 0x3C23D70A#32) := by
  after_results_simp

theorem B_v1 (W : Valuation τ sig (Elt Ideal)) :
    after opsB2 (after opsB1 W) (main_v1 : DevRef τ sig) = W (main_v1 : DevRef τ sig) := by
  after_results_simp

theorem B_v3 (W : Valuation τ sig (Elt Ideal)) :
    after opsB2 (after opsB1 W) (main_v3 : DevRef τ sig) = W (main_v3 : DevRef τ sig) := by
  after_results_simp

theorem C_v48 (W : Valuation τ sig (Elt Ideal)) :
    after opsC W (main_v48 : DevRef τ sig) = leakB64 (W (main_v47 : DevRef τ sig)) (W (main_cst_9 : DevRef τ sig)) := by
  after_results_simp
  unfold leakB64
  simp only [cast_eq]

theorem C_v50 (W : Valuation τ sig (Elt Ideal)) : after opsC W (main_v50 : DevRef τ sig) = withLoops (W (main_v1 : DevRef τ sig)) := by
  after_results
  rfl

theorem C_v51 (W : Valuation τ sig (Elt Ideal)) : after opsC W (main_v51 : DevRef τ sig) = withLoops (W (main_v3 : DevRef τ sig)) := by
  after_results
  rfl

theorem D1_v60 (W : Valuation τ sig (Elt Ideal)) : after opsD1 W (main_v60 : DevRef τ sig) = dinvOf (W (main_v51 : DevRef τ sig)) := by
  after_results_simp
  unfold dinvOf degOf colIdx
  exact cast_eq _ _

theorem D1_v48 (W : Valuation τ sig (Elt Ideal)) : after opsD1 W (main_v48 : DevRef τ sig) = W (main_v48 : DevRef τ sig) := by
  after_results_simp

theorem D1_v50 (W : Valuation τ sig (Elt Ideal)) : after opsD1 W (main_v50 : DevRef τ sig) = W (main_v50 : DevRef τ sig) := by
  after_results_simp

theorem D1_v51 (W : Valuation τ sig (Elt Ideal)) : after opsD1 W (main_v51 : DevRef τ sig) = W (main_v51 : DevRef τ sig) := by
  after_results_simp

theorem AD1_arg4 (V : Valuation τ sig (Elt Ideal)) :
    after opsD1 (after opsC (after opsB2 (after opsB1 (after opsA V)))) (main_arg4 : DevRef τ sig) = V (main_arg4 : DevRef τ sig) := by
  after_results_simp

theorem AD1_arg5 (V : Valuation τ sig (Elt Ideal)) :
    after opsD1 (after opsC (after opsB2 (after opsB1 (after opsA V)))) (main_arg5 : DevRef τ sig) = V (main_arg5 : DevRef τ sig) := by
  after_results_simp

theorem D2_v92 (W : Valuation τ sig (Elt Ideal)) :
    after opsD2 W (main_v92 : DevRef τ sig)
      = addf (aggW32 (W (main_v50 : DevRef τ sig)) (W (main_v51 : DevRef τ sig)) (W (main_v60 : DevRef τ sig))
                (Host.dotGeneral (F := Ideal) (φ₁ := .f32) (φ₂ := .f32) dot_S100000x64_S64x32_S100000x32_1_0_0_1_n_n none (W (main_v48 : DevRef τ sig)) (W (main_arg4 : DevRef τ sig))))
          (biasRows32 (W (main_arg5 : DevRef τ sig))) := by
  after_results_simp
  rfl

theorem D2_cst21 (W : Valuation τ sig (Elt Ideal)) : after opsD2 W (main_cst_21 : DevRef τ sig) = (constant (F := Ideal) S_ .f32 0x3C23D70A#32) := by
  after_results_simp

theorem D3_v93 (W : Valuation τ sig (Elt Ideal)) :
    after opsD3 W (main_v93 : DevRef τ sig) = leakB32 (W (main_v92 : DevRef τ sig)) (W (main_cst_21 : DevRef τ sig)) := by
  after_results_simp
  unfold leakB32
  simp only [cast_eq]

section Plain
variable {F : FTy → Type} [FloatOps F]

/-- The log-softmax's fifteen operations with the references' own types read off: the same list, operation by
    operation, as `opsD4`. -/
abbrev opsD4p : List (HloOp τ sig (Elt F)) :=
  [ nullary main_call4_cst (constant S_ .f32 0xFF800000#32),
    binary main_v93 main_call4_cst main_call4_v0 ((fun x v => Host.reduce FloatOps.maximumf x v reducesTo_S100000x32_S100000_d1 h_S_) : (⟨S100000x32, .f32⟩ : BufTy).Contents (Elt F) → (⟨S_, .f32⟩ : BufTy).Contents (Elt F) → (⟨S100000, .f32⟩ : BufTy).Contents (Elt F)),
    nullary main_call4_cst_0 (constant S_ .f32 0xFF800000#32),
    unary main_call4_cst_0 main_call4_v1 (broadcastInDim S100000 ![] bcast_S_S100000 : (⟨S_, .f32⟩ : BufTy).Contents (Elt F) → (⟨S100000, .f32⟩ : BufTy).Contents (Elt F)),
    binary main_call4_v1 main_call4_v0 main_call4_v2 (maximumf : (⟨S100000, .f32⟩ : BufTy).Contents (Elt F) → (⟨S100000, .f32⟩ : BufTy).Contents (Elt F) → (⟨S100000, .f32⟩ : BufTy).Contents (Elt F)),
    unary main_call4_v2 main_call4_v3 (broadcastInDim S100000x1 ![0] bcast_S100000_S100000x1_0 : (⟨S100000, .f32⟩ : BufTy).Contents (Elt F) → (⟨S100000x1, .f32⟩ : BufTy).Contents (Elt F)),
    unary main_call4_v3 main_call4_v4 (broadcastInDim S100000x32 ![0, 1] bcast_S100000x1_S100000x32_0_1 : (⟨S100000x1, .f32⟩ : BufTy).Contents (Elt F) → (⟨S100000x32, .f32⟩ : BufTy).Contents (Elt F)),
    binary main_v93 main_call4_v4 main_call4_v5 (subf : (⟨S100000x32, .f32⟩ : BufTy).Contents (Elt F) → (⟨S100000x32, .f32⟩ : BufTy).Contents (Elt F) → (⟨S100000x32, .f32⟩ : BufTy).Contents (Elt F)),
    unary main_call4_v5 main_call4_v6 (Host.exp : (⟨S100000x32, .f32⟩ : BufTy).Contents (Elt F) → (⟨S100000x32, .f32⟩ : BufTy).Contents (Elt F)),
    nullary main_call4_cst_1 (constant S_ .f32 0x00000000#32),
    binary main_call4_v6 main_call4_cst_1 main_call4_v7 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_call4_v7 main_call4_v8 (broadcastInDim S100000x1 ![0] bcast_S100000_S100000x1_0 : (⟨S100000, .f32⟩ : BufTy).Contents (Elt F) → (⟨S100000x1, .f32⟩ : BufTy).Contents (Elt F)),
    unary main_call4_v8 main_call4_v9 (Host.log : (⟨S100000x1, .f32⟩ : BufTy).Contents (Elt F) → (⟨S100000x1, .f32⟩ : BufTy).Contents (Elt F)),
    unary main_call4_v9 main_call4_v10 (broadcastInDim S100000x32 ![0, 1] bcast_S100000x1_S100000x32_0_1 : (⟨S100000x1, .f32⟩ : BufTy).Contents (Elt F) → (⟨S100000x32, .f32⟩ : BufTy).Contents (Elt F)),
    binary main_call4_v5 main_call4_v10 main_v94 (subf : (⟨S100000x32, .f32⟩ : BufTy).Contents (Elt F) → (⟨S100000x32, .f32⟩ : BufTy).Contents (Elt F) → (⟨S100000x32, .f32⟩ : BufTy).Contents (Elt F)) ]

theorem opsD4_eq : (opsD4 : List (HloOp τ sig (Elt F))) = opsD4p := rfl

end Plain

theorem D4_v94 (W : Valuation τ sig (Elt Ideal)) : after opsD4 W (main_v94 : DevRef τ sig) = lsmB (W (main_v93 : DevRef τ sig)) := by
  rw [opsD4_eq]
  after_results_simp
  rfl

end Pieces

/-! ## The result -/

theorem plain1 : Cert.LibPlainDot.Plain dot_S100000x256_S256x64_S100000x64_1_0_0_1_n_n := ⟨rfl, rfl, rfl, rfl, rfl, rfl⟩
theorem plain2 : Cert.LibPlainDot.Plain dot_S100000x64_S64x32_S100000x32_1_0_0_1_n_n := ⟨rfl, rfl, rfl, rfl, rfl, rfl⟩

/-- The composed pieces are the network: the two products are row-times-matrix sums, a bias row followed by the
    rectifier's body is the leaky rectifier of the sum, and the last body is the row-wise log-softmax. -/
theorem value_eq (e : IVec S2x1600000 32) (x : FVec Ideal S100000x256 .f32) (w1 : FVec Ideal S256x64 .f32)
    (b1 : FVec Ideal S64 .f32) (w2 : FVec Ideal S64x32 .f32) (b2 : FVec Ideal S32 .f32) :
    lsmB (leakB32
        (addf (aggW32 (withLoops (row0 e)) (withLoops (row1 e)) (dinvOf (withLoops (row1 e)))
                (Host.dotGeneral (F := Ideal) (φ₁ := .f32) (φ₂ := .f32) dot_S100000x64_S64x32_S100000x32_1_0_0_1_n_n none (leakB64 (addf (aggW64 (withLoops (row0 e)) (withLoops (row1 e)) (dinvOf (withLoops (row1 e))) (Host.dotGeneral (F := Ideal) (φ₁ := .f32) (φ₂ := .f32) dot_S100000x256_S256x64_S100000x64_1_0_0_1_n_n none x w1)) (biasRows64 b1)) (constant (F := Ideal) S_ .f32 0x3C23D70A#32)) w2))
          (biasRows32 b2))
        (constant (F := Ideal) S_ .f32 0x3C23D70A#32))
      = Cert.Gcn.gcn (agg64 e) (agg32 e) x w1 b1 w2 b2 := by
  have hl64 : ∀ a : FVec Ideal S100000x64 .f32,
      leakB64 (addf a (biasRows64 b1)) (constant (F := Ideal) S_ .f32 0x3C23D70A#32) = Cert.Gcn.leakyRow a b1 :=
    fun a => Cert.HostSpell.host_leaky a b1 bcast_S64_S1x64_1 bcast_S1x64_S100000x64_0_1 bcast_S_S100000x64
  have hl32 : ∀ a : FVec Ideal S100000x32 .f32,
      leakB32 (addf a (biasRows32 b2)) (constant (F := Ideal) S_ .f32 0x3C23D70A#32) = Cert.Gcn.leakyRow a b2 :=
    fun a => Cert.HostSpell.host_leaky a b2 bcast_S32_S1x32_1 bcast_S1x32_S100000x32_0_1 bcast_S_S100000x32
  have hlsm : ∀ y : FVec Ideal S100000x32 .f32, lsmB y = Cert.Gcn.lsmRows y :=
    fun y => Cert.HostSpell.host_lsm y reducesTo_S100000x32_S100000_d1 (by decide) h_S_ bcast_S_S100000
      bcast_S100000_S100000x1_0 bcast_S100000x1_S100000x32_0_1
  rw [Cert.HostSpell.host_dot dot_S100000x256_S256x64_S100000x64_1_0_0_1_n_n plain1, Cert.HostSpell.host_dot dot_S100000x64_S64x32_S100000x32_1_0_0_1_n_n plain2, hl64, hl32, hlsm,
    withLoops_row0, withLoops_row1, aggW64_eq, aggW32_eq]
  rfl

/-- The fold of all of @main at the result buffer is the network of the arguments' launch contents. -/
theorem out_eq (V : Valuation τ sig (Elt Ideal)) :
    after ops V (main_v94 : DevRef τ sig)
      = Cert.Gcn.gcn (agg64 (V (main_arg1 : DevRef τ sig))) (agg32 (V (main_arg1 : DevRef τ sig)))
          (V (main_arg0 : DevRef τ sig)) (V (main_arg2 : DevRef τ sig)) (V (main_arg3 : DevRef τ sig)) (V (main_arg4 : DevRef τ sig)) (V (main_arg5 : DevRef τ sig)) := by
  rw [after_ops, D4_v94, D3_v93, D2_v92, D2_cst21, D1_v60, D1_v48, D1_v50, D1_v51, AD1_arg4, AD1_arg5,
    C_v48, C_v50, C_v51, B2_v47, B2_cst9, B_v1, B_v3, B1_v15, B1_v5, B1_v6, AB1_arg0, AB1_arg2, AB1_arg3,
    A_v1, A_v3, A_v5, A_v6]
  exact value_eq _ _ _ _ _ _
/-- At the compiled mesh, at the ideal instance, from any memory with zero counters: every weakly fair execution of
    the reference's @main terminates with the result buffer holding the network of the argument arrays' launch
    contents, and the six argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v94)
          = Cert.Gcn.gcn (agg64 (m ((c.tc : Thread nD τ).loc main_arg1))) (agg32 (m ((c.tc : Thread nD τ).loc main_arg1)))
              (m ((c.tc : Thread nD τ).loc main_arg0)) (m ((c.tc : Thread nD τ).loc main_arg2))
              (m ((c.tc : Thread nD τ).loc main_arg3)) (m ((c.tc : Thread nD τ).loc main_arg4))
              (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) :=
  (θ_run (defs (F := Ideal)) _ _).mono
    (fun _ h c => ⟨(h c main_v94).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _)⟩)
    (run_ops (F := Ideal) m ρ)

end Cert.ReferenceIdeal.Hand

end
-- ==== Proof.Bridge.lean ====
import proofs.«107355_j11166914969680_1_alg».proof.Proof.KAgg
import proofs.«107355_j11166914969680_1_alg».proof.Proof.RAgg

/-!
# The two programs spell one edge aggregation

The kernel program and the reference apply the same host operations, with the same dimension numbers and over the
same shapes, to build the index arrays, the edge weights and the two aggregations; only the names of the records
that carry those dimension numbers differ. So each of these functions of the edge array is one function on the two
sides.
-/

noncomputable section

namespace Cert.Bridge

open Idealize.ShloMosaic

variable [Cert.KernelIdeal.Facts] [Cert.ReferenceIdeal.Facts]

/-- The records of dimension numbers are the same records. -/
theorem scatter1_eq : Cert.KernelIdeal.scatter_S100000_S1700000x1_S1700000_n_0_0_1 = Cert.ReferenceIdeal.scatter_S100000_S1700000x1_S1700000_n_0_0_1 := rfl
theorem gather1_eq : Cert.KernelIdeal.gather_S100000_S1700000x1_S1700000_n_0_n_n_0_1_1 = Cert.ReferenceIdeal.gather_S100000_S1700000x1_S1700000_n_0_n_n_0_1_1 := rfl
theorem scatter64_eq : Cert.KernelIdeal.scatter_S100000x64_S1700000x1_S1700000x64_1_0_0_1 = Cert.ReferenceIdeal.scatter_S100000x64_S1700000x1_S1700000x64_1_0_0_1 := rfl
theorem gather64_eq : Cert.KernelIdeal.gather_S100000x64_S1700000x1_S1700000x64_1_0_n_n_0_1_164 = Cert.ReferenceIdeal.gather_S100000x64_S1700000x1_S1700000x64_1_0_n_n_0_1_164 := rfl
theorem scatter32_eq : Cert.KernelIdeal.scatter_S100000x32_S1700000x1_S1700000x32_1_0_0_1 = Cert.ReferenceIdeal.scatter_S100000x32_S1700000x1_S1700000x32_1_0_0_1 := rfl
theorem gather32_eq : Cert.KernelIdeal.gather_S100000x32_S1700000x1_S1700000x32_1_0_n_n_0_1_132 = Cert.ReferenceIdeal.gather_S100000x32_S1700000x1_S1700000x32_1_0_n_n_0_1_132 := rfl

theorem srcIdx_eq (e : IVec ⟨2, ![2, 1600000]⟩ 32) : Cert.KernelIdeal.Hand.srcIdx e = Cert.ReferenceIdeal.Hand.srcIdx e := rfl
theorem dstIdx_eq (e : IVec ⟨2, ![2, 1600000]⟩ 32) : Cert.KernelIdeal.Hand.dstIdx e = Cert.ReferenceIdeal.Hand.dstIdx e := rfl
theorem wrapIdx_eq (s : IVec ⟨1, ![1700000]⟩ 32) : Cert.KernelIdeal.Hand.wrapIdx s = Cert.ReferenceIdeal.Hand.wrapIdx s := rfl
theorem colIdx_eq (s : IVec ⟨1, ![1700000]⟩ 32) : Cert.KernelIdeal.Hand.colIdx s = Cert.ReferenceIdeal.Hand.colIdx s := rfl

theorem deg_eq (e : IVec ⟨2, ![2, 1600000]⟩ 32) : Cert.KernelIdeal.Hand.deg e = Cert.ReferenceIdeal.Hand.deg e := by
  unfold Cert.KernelIdeal.Hand.deg Cert.ReferenceIdeal.Hand.deg
  rw [dstIdx_eq, colIdx_eq, scatter1_eq]

theorem dinv_eq (e : IVec ⟨2, ![2, 1600000]⟩ 32) : Cert.KernelIdeal.Hand.dinv e = Cert.ReferenceIdeal.Hand.dinv e := by
  unfold Cert.KernelIdeal.Hand.dinv Cert.ReferenceIdeal.Hand.dinv
  rw [deg_eq]

theorem norm_eq (e : IVec ⟨2, ![2, 1600000]⟩ 32) : Cert.KernelIdeal.Hand.norm e = Cert.ReferenceIdeal.Hand.norm e := by
  unfold Cert.KernelIdeal.Hand.norm Cert.ReferenceIdeal.Hand.norm
  rw [dinv_eq, srcIdx_eq, dstIdx_eq, wrapIdx_eq, wrapIdx_eq, gather1_eq]

theorem agg64_eq (e : IVec ⟨2, ![2, 1600000]⟩ 32) (h : FVec Ideal ⟨2, ![100000, 64]⟩ .f32) :
    Cert.KernelIdeal.Hand.agg64 e h = Cert.ReferenceIdeal.Hand.agg64 e h := by
  unfold Cert.KernelIdeal.Hand.agg64 Cert.ReferenceIdeal.Hand.agg64
  rw [norm_eq, srcIdx_eq, dstIdx_eq, wrapIdx_eq, colIdx_eq, gather64_eq, scatter64_eq]

theorem agg32_eq (e : IVec ⟨2, ![2, 1600000]⟩ 32) (h : FVec Ideal ⟨2, ![100000, 32]⟩ .f32) :
    Cert.KernelIdeal.Hand.agg32 e h = Cert.ReferenceIdeal.Hand.agg32 e h := by
  unfold Cert.KernelIdeal.Hand.agg32 Cert.ReferenceIdeal.Hand.agg32
  rw [norm_eq, srcIdx_eq, dstIdx_eq, wrapIdx_eq, colIdx_eq, gather32_eq, scatter32_eq]

end Cert.Bridge

end
-- ==== Proof.lean ====
/- The proof of `Cert.Claim`: the three frames, the idealization's ledger (empty), and the equality of the idealized kernel
   program and the idealized reference over the extended reals.

   Both programs compute a two-layer graph convolution with a log-softmax head (`Cert.Gcn.gcn`, Proof/Spec.lean): rows
   times a weight matrix, an aggregation along the edges, a bias row and the leaky rectifier, twice, then row by row the
   log-softmax. The kernel program computes the dense steps in four pipelined regions over tiles of 5000 rows
   (Proof/Region0 … Region3: each region's output array as one function of its input arrays; Proof/KerHost, KerHost2,
   KerValue: the host operations between them and the whole run) and the reference computes them on the host
   (Proof/RefOps, RefValue); over the extended reals a product accumulated in the matrix unit and the host's product
   are the same sums, a tile's rows are the array's rows, and testing `v > 0` or `v ≥ 0` in the rectifier gives the same
   function. The edge aggregation is the same composition of host operations on the two sides (Proof/Bridge). No step
   uses that the inputs are finite. -/
import proofs.«107355_j11166914969680_1_alg».proof.Defs
import proofs.«107355_j11166914969680_1_alg».proof.Proof.Gen.Kernel
import proofs.«107355_j11166914969680_1_alg».proof.Proof.Gen.Kernel.Skeleton
import proofs.«107355_j11166914969680_1_alg».proof.Proof.Gen.Kernel.Launch
import proofs.«107355_j11166914969680_1_alg».proof.Proof.Gen.Kernel.Points
import proofs.«107355_j11166914969680_1_alg».proof.Proof.Gen.Kernel.Frame
import proofs.«107355_j11166914969680_1_alg».proof.Proof.Gen.KernelIdeal
import proofs.«107355_j11166914969680_1_alg».proof.Proof.Gen.KernelIdeal.Skeleton
import proofs.«107355_j11166914969680_1_alg».proof.Proof.Gen.KernelIdeal.Launch
import proofs.«107355_j11166914969680_1_alg».proof.Proof.Gen.KernelIdeal.Points
import proofs.«107355_j11166914969680_1_alg».proof.Proof.Gen.KernelIdeal.Frame
import proofs.«107355_j11166914969680_1_alg».proof.Proof.Gen.ReferenceIdeal
import proofs.«107355_j11166914969680_1_alg».proof.Proof.Gen.Pre_finite_inputs
import proofs.«107355_j11166914969680_1_alg».proof.Proof.KerValue
import proofs.«107355_j11166914969680_1_alg».proof.Proof.RefValue
import proofs.«107355_j11166914969680_1_alg».proof.Proof.Bridge
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Hand.run m ρ)

/-- From memories that agree on the arguments both programs end with the network's output: the kernel program's
    run and the reference's run state it with the two programs' own spellings of the edge aggregation, which are one
    function. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun r h c => ⟨(h c).1.trans ?_, (h c).2⟩)
    (Cert.ReferenceIdeal.Hand.run m' ρ')
  obtain ⟨e0, e1, e2, e3, e4, e5⟩ := hagree c
  rw [e0, e1, e2, e3, e4, e5]
  exact congrArg₂ (fun a1 a2 => Cert.Gcn.gcn a1 a2 _ _ _ _ _)
    (funext fun h => (Cert.Bridge.agg64_eq _ h).symm) (funext fun h => (Cert.Bridge.agg32_eq _ h).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
